-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8192 : Shape := ⟨2, ![2048, 8192]⟩
abbrev S8192x8192 : Shape := ⟨2, ![8192, 8192]⟩
abbrev S_ : Shape := ⟨0, ![]⟩

class Facts : Prop where
  bcast_S_S2048x8192 : S_.BroadcastsInDim S2048x8192 (![] : Fin 0 → Fin S2048x8192.rank)
  reducesTo_S2048x8192_S_d0_1 : S2048x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S2048x8192 .f32) (main_arg1 : FVec F S8192x8192 .f32) : IVec S_ 1 :=
  let main_v0 : FVec F S2048x8192 .f32 := Host.absf main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_c : IVec S_ 1 := constantI S_ 1 1#1
  let main_v3 : IVec S_ 1 := (fun x v => Host.reduce IntOp.andi x v reducesTo_S2048x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S2048x8192 : Shape := ⟨2, ![2048, 8192]⟩
abbrev S8192x8192 : Shape := ⟨2, ![8192, 8192]⟩
abbrev S1x8192 : Shape := ⟨2, ![1, 8192]⟩
abbrev S512x4096 : Shape := ⟨2, ![512, 4096]⟩
abbrev S1x4096 : Shape := ⟨2, ![1, 4096]⟩
abbrev S4096 : Shape := ⟨1, ![4096]⟩
abbrev S2048x1 : Shape := ⟨2, ![2048, 1]⟩
abbrev S1024x2048 : Shape := ⟨2, ![1024, 2048]⟩
abbrev S1x2048 : Shape := ⟨2, ![1, 2048]⟩
abbrev S1024x1 : Shape := ⟨2, ![1024, 1]⟩
abbrev S1024 : Shape := ⟨1, ![1024]⟩

abbrev nBuf : Space → Nat
  | .hbm => 4
  | .vmem => 12
  | .smem => 0
  | _ => 0

abbrev bufTy : (tb : Table) → Fin (tcTables nBuf tb) → BufTy
  | .hbm, ⟨0, _⟩ => ⟨S2048x8192, .f32⟩
  | .hbm, ⟨1, _⟩ => ⟨S8192x8192, .f32⟩
  | .hbm, ⟨2, _⟩ => ⟨S1x8192, .f32⟩
  | .hbm, ⟨3, _⟩ => ⟨S2048x1, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1024x2048, .f32⟩
  | .local _ .vmem, ⟨6, _⟩ => ⟨S1024x2048, .f32⟩
  | .local _ .vmem, ⟨7, _⟩ => ⟨S1x2048, .f32⟩
  | .local _ .vmem, ⟨8, _⟩ => ⟨S1x2048, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v11 : BitVec 1 := Scalar.cmpi .eq arg1 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x4096_S512x4096_0_0 : ∀ a, (![0, 0] : Fin 2 → Nat) a + S512x4096.size a ≤ S512x4096.size a
  h_S512x4096 : 0 < S512x4096.numel
  reduces_S512x4096_S4096 : S512x4096.Reduces [0] S4096
  shapeCasts_S4096_S1x4096 : S4096.ShapeCasts S1x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  reduces_S1024x2048_S1024 : S1024x2048.Reduces [1] S1024
  shapeCasts_S1024_S1024x1 : S1024.ShapeCasts S1024x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x8192.size a
  hwx0_0 : ∀ i : grid0.Coords, EltTy.bits .f32 = 32 ∨ (Rect.block (s := S8192x8192) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x8192.size a
  hwx0_1 : ∀ i : grid0.Coords, EltTy.bits .f32 = 32 ∨ (Rect.block (s := S1x8192) S1x4096.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S2048x8192.size a
  hwx1_0 : ∀ i : grid1.Coords, EltTy.bits .f32 = 32 ∨ (Rect.block (s := S2048x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x8192.size a
  hwx1_1 : ∀ i : grid1.Coords, EltTy.bits .f32 = 32 ∨ (Rect.block (s := S1x8192) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S2048x1.size a
  hwx1_2 : ∀ i : grid1.Coords, EltTy.bits .f32 = 32 ∨ (Rect.block (s := S2048x1) S1024x1.size (cc1_transform_2 i) (hinb1_2 i)).WholeWords (EltTy.packing .f32)

variable [Facts₀]

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2048x8192 : Shape := ⟨2, ![2048, 8192]⟩
abbrev S8192x8192 : Shape := ⟨2, ![8192, 8192]⟩
abbrev S_ : Shape := ⟨0, ![]⟩
abbrev S2048 : Shape := ⟨1, ![2048]⟩
abbrev S2048x1 : Shape := ⟨2, ![2048, 1]⟩

abbrev nBuf : Space → Nat
  | .hbm => 12
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x8192, .f32⟩
  | .hbm, ⟨2, _⟩ => ⟨S2048x8192, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S2048x8192 : S_.BroadcastsInDim S2048x8192 (![] : Fin 0 → Fin S2048x8192.rank)
  reducesTo_S2048x8192_S2048_d1 : S2048x8192.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  dot_S2048x8192_S8192x8192_S2048x8192_1_1_0_0_n_n_wf : DotDims.WF S2048x8192 S8192x8192 S2048x8192 [1] [1] [0] [0] [] []

variable [Facts₀]

def dot_S2048x8192_S8192x8192_S2048x8192_1_1_0_0_n_n : DotDims S2048x8192 S8192x8192 S2048x8192 where
  lhsContracting := [1]
  rhsContracting := [1]
  lhsNonContracting := [0]
  rhsNonContracting := [0]
  lhsBatch := []
  rhsBatch := []
  wf := dot_S2048x8192_S8192x8192_S2048x8192_1_1_0_0_n_n_wf

class Facts : Prop extends Facts₀ where

variable [Facts]
-- ==== Proof.KwColSum.lean ====
/-
  The first pass: column sums of the weight matrix, accumulated in a scratch row.

  The grid is 2 column tiles by 16 row tiles, walked row tile fastest: point t works on rows 512·(t mod 16) … of columns
  4096·(t div 16) …. At the first row tile of a column tile the body zeroes the scratch row; at every point it adds the
  block's column sums to it; at the last row tile it copies the scratch row into the output block, which is written
  back there and nowhere else. So after point t the scratch row holds the sums over the row tiles 0 … t mod 16 of the
  current column tile (`acc`), and the output block at the last row tile is that row.

  This module states what the body leaves in its three buffers in each of the three situations (first, middle, last row
  tile), the running scratch contents point by point, the region's invariant (the scratch row at `acc`, the second
  pass's buffers and the generator register untouched), the proof data and the body obligation, for any entry contents
  `V` of the arrays and any float instance.
-/
import proofs.«132313_j73315091744103_2_alg».proof.Proof.Gen.Kernel.Launch
import proofs.«132313_j73315091744103_2_alg».proof.Proof.Gen.Kernel.Skeleton
import proofs.«132313_j73315091744103_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.ColSum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- "first row tile": the condition of the zeroing branch, as the body computes it from the grid coordinates. -/
abbrev isFirst (i : grid0.Coords) : Prop :=
  (Scalar.cmpi .ne (Scalar.extui (Scalar.cmpi .eq (BitVec.ofNat 32 (i 1).val) 0#32)) 0#32) = 1#1
/-- "last row tile": the condition of the copy-out branch. -/
abbrev isLast (i : grid0.Coords) : Prop := k0_cond2 i = 1#1

theorem first_iff : ∀ t : Fin cfg0.N, isFirst (grid0.coords t) ↔ t.val % 16 = 0 :=
  (by decide +kernel : ∀ t : Fin grid0.N, isFirst (grid0.coords t) ↔ t.val % 16 = 0)
theorem last_iff : ∀ t : Fin cfg0.N, isLast (grid0.coords t) ↔ t.val % 16 = 15 :=
  (by decide +kernel : ∀ t : Fin grid0.N, isLast (grid0.coords t) ↔ t.val % 16 = 15)

/-- The input window is never idle; the output window is idle, and not written back, away from the last row tile. -/
theorem live_in : ∀ t : Fin cfg0.N, cfg0.idle 0 (grid0.coords t) = false := by decide +kernel
theorem idle_out : ∀ t : Fin cfg0.N, ¬ isLast (grid0.coords t) → cfg0.idle 1 (grid0.coords t) = true := by decide +kernel
theorem noflush_out : ∀ t : Fin cfg0.N, ¬ isLast (grid0.coords t) → (cfg0.win 1).flush t = false := by decide +kernel
theorem live_out : ∀ t : Fin cfg0.N, isLast (grid0.coords t) → cfg0.idle 1 (grid0.coords t) = false := by decide +kernel

/-! ## The body on any whole staging memrefs, in its three situations -/

theorem zero2 : (![0, 0] : Fin 2 → ℕ) = fun _ => 0 := by funext a; fin_cases a <;> rfl

set_option maxHeartbeats 1000000 in
/-- First row tile (and not the last): the scratch row is zeroed, then the block's column sums are added; the output
    buffer is not touched. -/
theorem run_first (c : Dev nD) (E : Set ℕ) (i : grid0.Coords)
    (arg2 : Memref sig .tc .vmem S512x4096 .f32) (harg2 : arg2.IsWhole)
    (arg3 : Memref sig .tc .vmem S1x4096 .f32) (harg3 : arg3.IsWhole)
    (arg4 : Memref sig .tc .vmem S1x4096 .f32) (harg4 : arg4.IsWhole)
    (hc0 : isFirst i) (hc1 : ¬ isLast i)
    (x0 : Vec F S512x4096 .f32) (d3 : Vec F S1x4096 .f32) (K : PUnit → sProp 𝕄) :
    iprop(owns (c : Thread nD τ) arg2 fullShare x0 ∗ owns (c : Thread nD τ) arg3 fullShare d3
        ∗ (∃ d, owns (c : Thread nD τ) arg4 fullShare d)
        ∗ (iprop(owns (c : Thread nD τ) arg2 fullShare x0 ∗ owns (c : Thread nD τ) arg3 fullShare d3
            ∗ owns (c : Thread nD τ) arg4 fullShare (k0_pay2 (k0_pay1 (F := F)) x0)) -∗ K ⟨⟩))
      ⊢ wp frame (wpE (defs₀ (F := F)) Variants.none c none) E (cc0__colsum_kernel i arg2 harg2 arg3 harg3 arg4 harg4) K := by
  simp only [cc0__colsum_kernel_eq_skeleton]; unfold cc0__colsum_kernel_skel
  unfold owns
  iintro ⟨⟨%f0, %hf0, H0⟩, ⟨%f1, %hf1, H1⟩, ⟨%ds, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_run_names
  rw [View.read_writes_eq_canon _ _ _ (fun y => ⟨_, List.mem_cons_self .., View.mem_set_unit_zero zero2 inb_S1x4096_S1x4096_0_0 y⟩),
    View.canon_cons_unit_zero zero2]
  rw [View.readCov_unit_zero (S := S1x4096) arg4.view zero2, View.readAt_eq_ld, harg2.read_unread,
    View.ld_unit_zero (S := S512x4096) zero2]

set_option maxHeartbeats 1000000 in
/-- A middle row tile: the block's column sums are added to what the scratch row held; the output buffer is not touched. -/
theorem run_next (c : Dev nD) (E : Set ℕ) (i : grid0.Coords)
    (arg2 : Memref sig .tc .vmem S512x4096 .f32) (harg2 : arg2.IsWhole)
    (arg3 : Memref sig .tc .vmem S1x4096 .f32) (harg3 : arg3.IsWhole)
    (arg4 : Memref sig .tc .vmem S1x4096 .f32) (harg4 : arg4.IsWhole)
    (hc0 : ¬ isFirst i) (hc1 : ¬ isLast i)
    (x0 : Vec F S512x4096 .f32) (d3 : Vec F S1x4096 .f32) (xs : Vec F S1x4096 .f32) (K : PUnit → sProp 𝕄) :
    iprop(owns (c : Thread nD τ) arg2 fullShare x0 ∗ owns (c : Thread nD τ) arg3 fullShare d3
        ∗ owns (c : Thread nD τ) arg4 fullShare xs
        ∗ (iprop(owns (c : Thread nD τ) arg2 fullShare x0 ∗ owns (c : Thread nD τ) arg3 fullShare d3
            ∗ owns (c : Thread nD τ) arg4 fullShare (k0_pay2 xs x0)) -∗ K ⟨⟩))
      ⊢ wp frame (wpE (defs₀ (F := F)) Variants.none c none) E (cc0__colsum_kernel i arg2 harg2 arg3 harg3 arg4 harg4) K := by
  simp only [cc0__colsum_kernel_eq_skeleton]; unfold cc0__colsum_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [View.read_writes_eq_canon _ _ _ (fun y => ⟨_, List.mem_singleton_self _, View.mem_set_unit_zero zero2 inb_S1x4096_S1x4096_0_0 y⟩),
    View.canon_unit_zero zero2]
  rw [View.readAt_eq_ld, View.readAt_eq_ld, harg4.read_unread, harg2.read_unread,
    View.ld_unit_zero (S := S1x4096) zero2, View.ld_unit_zero (S := S512x4096) zero2]

set_option maxHeartbeats 1000000 in
/-- The last row tile (and not the first): the block's column sums are added to the scratch row, and the scratch row is
    copied into the output buffer. -/
theorem run_last (c : Dev nD) (E : Set ℕ) (i : grid0.Coords)
    (arg2 : Memref sig .tc .vmem S512x4096 .f32) (harg2 : arg2.IsWhole)
    (arg3 : Memref sig .tc .vmem S1x4096 .f32) (harg3 : arg3.IsWhole)
    (arg4 : Memref sig .tc .vmem S1x4096 .f32) (harg4 : arg4.IsWhole)
    (hc0 : ¬ isFirst i) (hc1 : isLast i)
    (x0 : Vec F S512x4096 .f32) (xs : Vec F S1x4096 .f32) (K : PUnit → sProp 𝕄) :
    iprop(owns (c : Thread nD τ) arg2 fullShare x0 ∗ (∃ d, owns (c : Thread nD τ) arg3 fullShare d)
        ∗ owns (c : Thread nD τ) arg4 fullShare xs
        ∗ (iprop(owns (c : Thread nD τ) arg2 fullShare x0 ∗ owns (c : Thread nD τ) arg3 fullShare (k0_pay2 xs x0)
            ∗ owns (c : Thread nD τ) arg4 fullShare (k0_pay2 xs x0)) -∗ K ⟨⟩))
      ⊢ wp frame (wpE (defs₀ (F := F)) Variants.none c none) E (cc0__colsum_kernel i arg2 harg2 arg3 harg3 arg4 harg4) K := by
  simp only [cc0__colsum_kernel_eq_skeleton]; unfold cc0__colsum_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hc0 | exact hc1)
  sl_step
  iapply Hk
  have e4 : View.read (Elt F) arg4.view (arg4.view.writes (Elt F) (harg4.unread xs)
      [⟨Rect.unit ![0, 0] S1x4096.size inb_S1x4096_S1x4096_0_0,
        k0_pay2 (View.readAt (Elt F) arg4.view (Rect.unit ![0, 0] S1x4096.size inb_S1x4096_S1x4096_0_0).toLoadRect (harg4.unread xs))
          (View.readAt (Elt F) arg2.view (Rect.unit ![0, 0] S512x4096.size inb_S512x4096_S512x4096_0_0).toLoadRect (harg2.unread x0))⟩])
      = k0_pay2 xs x0 := by
    rw [View.read_writes_eq_canon _ _ _ (fun y => ⟨_, List.mem_singleton_self _, View.mem_set_unit_zero zero2 inb_S1x4096_S1x4096_0_0 y⟩),
      View.canon_unit_zero zero2]
    rw [View.readAt_eq_ld, View.readAt_eq_ld, harg4.read_unread, harg2.read_unread,
      View.ld_unit_zero (S := S1x4096) zero2, View.ld_unit_zero (S := S512x4096) zero2]
  isplitl [H0]
  · iexists _; isplitr; · ipureintro; exact harg2.read_unread _
    iexact H0
  isplitl [H1]
  · iexists _; isplitr
    swap; · iexact H1
    ipureintro
    sl_unfold_run_names
    rw [View.read_writes_eq_canon _ _ _ (fun y => ⟨_, List.mem_singleton_self _, View.mem_set_unit_zero zero2 inb_S1x4096_S1x4096_0_0 y⟩),
      View.canon_unit_zero zero2]
    rw [View.readCov_unit_zero (S := S1x4096) arg4.view zero2]
    rw [View.readAt_eq_ld, View.readAt_eq_ld, harg4.read_unread, harg2.read_unread,
      View.ld_unit_zero (S := S1x4096) zero2, View.ld_unit_zero (S := S512x4096) zero2]
  iexists _; isplitr
  swap; · iexact HS0
  ipureintro
  sl_unfold_run_names
  exact e4

/-! ## The blocks, the running scratch row, the invariant and the proof data, at entry contents `V` -/

section Data

variable (V : (c : Dev nD) → (b : Ref sig .tc) → Buf (Elt F) ((c : Thread nD τ).loc b))

/-- Window `w`'s block at point `t`, read off its array as the region finds it. -/
def blockIn (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data over `V` whose body
    leaves the block in place. -/
theorem before_in_of {c : Dev nD} (dat : Dat τ (Elt F) Unit ℕ (UR sig nD τ) ℕ cfg0 c) (hA : dat.A 0 = V c (Pipeline.arrRef spec0 0))
    (hafter : ∀ t, dat.after 0 t = blockIn V c 0 t) (t : Fin cfg0.N) (d) : dat.before 0 t d = blockIn V c 0 t :=
  (dat.before_in_eq_fetched 0 rfl (fun _ => rfl) (fun _ _ _ => rfl) (fun t => by rw [hafter]; unfold Dat.blockOf blockIn; rw [hA]; try rfl) t d).trans
    (by unfold Dat.fetched Dat.blockOf blockIn; rw [hA]; try rfl)

/-- The scratch row after the body at position `n`: restarted from the zero row at each first row tile, otherwise what
    the point before left plus this block's column sums. -/
def acc (c : Dev nD) : (n : ℕ) → n < cfg0.N → Vec F S1x4096 .f32
  | 0, hn => k0_pay2 (k0_pay1 (F := F)) (blockIn V c 0 ⟨0, hn⟩)
  | n + 1, hn =>
    if (n + 1) % 16 = 0 then k0_pay2 (k0_pay1 (F := F)) (blockIn V c 0 ⟨n + 1, hn⟩)
    else k0_pay2 (acc c n (Nat.lt_of_succ_lt hn)) (blockIn V c 0 ⟨n + 1, hn⟩)

theorem acc_first (c : Dev nD) (t : Fin cfg0.N) (h : t.val % 16 = 0) :
    acc V c t.val t.isLt = k0_pay2 (k0_pay1 (F := F)) (blockIn V c 0 t) := by
  obtain ⟨n, hn⟩ := t
  cases n with
  | zero => rfl
  | succ n => exact if_pos h

theorem acc_next (c : Dev nD) (t : Fin cfg0.N) (h : ¬ t.val % 16 = 0) :
    acc V c t.val t.isLt = k0_pay2 (acc V c (t.val - 1) (Nat.lt_of_le_of_lt (Nat.sub_le _ _) t.isLt)) (blockIn V c 0 t) := by
  obtain ⟨n, hn⟩ := t
  cases n with
  | zero => exact absurd (Nat.zero_mod _) h
  | succ n => exact (if_neg h).trans rfl

/-- The scratch row as a memref. -/
abbrev scM : Memref sig .tc .vmem S1x4096 .f32 := Memref.whole cc0_scratch0
/-- Each window's current staging memref at point `t`. -/
abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096 .f32 := win0_1.stage (cfg0.slots t 1)
abbrev hs1 (t : Fin cfg0.N) : (ms1 t).IsWhole := hstage0_1 ((cfg0.slots t 1).cast nbuf0_1)

/-- The scoped buffers the first pass never touches (the second pass's staging buffers and scratch column), each whole at
    some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the launch hands a region of this pass: the scratch row at anything, the other scoped buffers, the generator register. -/
theorem PhiA_eq (c : Dev nD) :
    (Pipeline.ΦA spec0 c : sProp 𝕄)
      = iprop(((∃ d, owns (c : Thread nD τ) scM fullShare d) ∗ others c) ∗ (∃ r, prngReg c r)) := by
  unfold Pipeline.ΦA others; rw [scopedRest0_eq]; simp only [scM, owns_whole]; rfl

/-- The region's invariant before position `n`: at the start what the launch hands over; afterwards the same with the
    scratch row at what the point before left. -/
def PhiS (c : Dev nD) : (n : ℕ) → n ≤ cfg0.N → sProp 𝕄
  | 0, _ => Pipeline.ΦA spec0 c
  | n + 1, hn => iprop((owns (c : Thread nD τ) scM fullShare (acc V c n hn) ∗ others c) ∗ (∃ r, prngReg c r))

theorem PhiS_succ (c : Dev nD) (n : ℕ) (hn : n < cfg0.N) :
    PhiS V c (n + 1) hn = iprop((owns (c : Thread nD τ) scM fullShare (acc V c n hn) ∗ others c) ∗ (∃ r, prngReg c r)) := rfl

theorem PhiS_pos (c : Dev nD) (n : ℕ) (h : n ≤ cfg0.N) (hz : n ≠ 0) :
    PhiS V c n h = iprop((owns (c : Thread nD τ) scM fullShare (acc V c (n - 1) (by omega)) ∗ others c) ∗ (∃ r, prngReg c r)) := by
  cases n with
  | zero => exact absurd rfl hz
  | succ n => rfl

/-- At any position the invariant gives the launch's form back: the scratch row's named contents are forgotten. -/
theorem PhiS_any (c : Dev nD) (n : ℕ) (h : n ≤ cfg0.N) :
    PhiS V c n h ⊢ iprop(((∃ d, owns (c : Thread nD τ) scM fullShare d) ∗ others c) ∗ (∃ r, prngReg c r)) := by
  cases n with
  | zero => rw [show PhiS V c 0 h = Pipeline.ΦA spec0 c from rfl, PhiA_eq]
  | succ n =>
    rw [PhiS_succ]
    iintro ⟨⟨HS, Ho⟩, Hg⟩
    isplitl [HS Ho]
    · isplitl [HS]
      · iexists _; iexact HS
      iexact Ho
    iexact Hg

/-- The proof data of the first pass on core `c`: the arrays as the region finds them; after the body at point `t` the
    input's buffer at its block and the output's at the scratch row's contents; the invariant `PhiS`; nothing owed;
    full shares. -/
def dat (c : Dev nD) : Dat τ (Elt F) Unit ℕ (UR sig nD τ) ℕ cfg0 c where
  A w := V c (Pipeline.arrRef spec0 w)
  after w t := match w with
    | ⟨0, _⟩ => blockIn V c 0 t
    | ⟨1, _⟩ => acc V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_in (c : Dev nD) (t : Fin cfg0.N) : (dat V c).after 0 t = blockIn V c 0 t := by dsimp only [dat]
theorem after_out (c : Dev nD) (t : Fin cfg0.N) : (dat V c).after 1 t = acc V c t.val t.isLt := by dsimp only [dat]

theorem before_in (c : Dev nD) (t : Fin cfg0.N) (d) : (dat V c).before 0 t d = blockIn V c 0 t :=
  before_in_of V (dat V c) (A_eq V c 0) (after_in V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point: the input's memref holds its block; the point's position in its column tile says which of the
    three situations applies; the invariant hands the body the scratch row at what the point before left (at anything
    at a first row tile) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  rw [show (dat V c).leavesExact 0 t = owns (c : Thread nD τ) (ms0 t) fullShare ((dat V c).after 0 t) from by
    unfold Dat.leavesExact; rw [live_in t], after_in]
  rw [PhiS_castSucc V c t]
  by_cases h0 : t.val % 16 = 0
  · have h1 : ¬ t.val % 16 = 15 := by omega
    rw [Dat.leavesExact_idle (dat V c) 1 t (idle_out t (fun h => h1 ((last_iff t).mp h))) (noflush_out t (fun h => h1 ((last_iff t).mp h)))]
    rw [acc_first V c t h0]
    have hany := PhiS_any V c t.val (Nat.le_of_lt t.isLt)
    iintro ⟨HP, Ho, ⟨%d0, H0⟩, ⟨%d1, H1⟩⟩
    ihave HP' := hany $$ HP
    icases HP' with ⟨⟨HS, Hoth⟩, Hg⟩
    iapply (run_first c Set.univ (grid0.coords t) _ _ _ _ _ _ ((first_iff t).mpr h0) (fun h => h1 ((last_iff t).mp h)) (blockIn V c 0 t) _ _)
    isplitl [H0]; · iexact H0
    isplitl [H1]; · iexact H1
    isplitl [HS]; · iexact HS
    iintro ⟨H0, H1, HS⟩
    isplitl [HS Hoth Hg]
    · isplitl [HS Hoth]
      · isplitl [HS]; · iexact HS
        iexact Hoth
      iexact Hg
    isplitl [Ho]; · iexact Ho
    isplitl [H0]; · iexact H0
    iexists _; iexact H1
  · have hz : t.val ≠ 0 := by intro h; rw [h] at h0; exact h0 (Nat.zero_mod _)
    rw [PhiS_pos V c _ _ hz, acc_next V c t h0]
    by_cases h1 : t.val % 16 = 15
    · rw [show (dat V c).leavesExact 1 t = owns (c : Thread nD τ) (ms1 t) fullShare ((dat V c).after 1 t) from by
        unfold Dat.leavesExact; rw [live_out t ((last_iff t).mpr h1)], after_out, acc_next V c t h0]
      iintro ⟨⟨⟨HS, Hoth⟩, Hg⟩, Ho, ⟨%d0, H0⟩, ⟨%d1, H1⟩⟩
      iapply (run_last c Set.univ (grid0.coords t) _ _ _ _ _ _ (fun h => h0 ((first_iff t).mp h)) ((last_iff t).mpr h1) (blockIn V c 0 t) _ _)
      isplitl [H0]; · iexact H0
      isplitl [H1]; · iexists _; iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      iexact H1
    · rw [Dat.leavesExact_idle (dat V c) 1 t (idle_out t (fun h => h1 ((last_iff t).mp h))) (noflush_out t (fun h => h1 ((last_iff t).mp h)))]
      iintro ⟨⟨⟨HS, Hoth⟩, Hg⟩, Ho, ⟨%d0, H0⟩, ⟨%d1, H1⟩⟩
      iapply (run_next c Set.univ (grid0.coords t) _ _ _ _ _ _ (fun h => h0 ((first_iff t).mp h)) (fun h => h1 ((last_iff t).mp h)) (blockIn V c 0 t) _ _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      iexists _; iexact H1

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl]
  exact BI.Entails.refl _

/-- After the last point the invariant gives the launch's form back. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl, PhiA_eq]
  exact PhiS_any V c _ _

end Data

end Cert.Kernel.ColSum

end
-- ==== Proof.KwMatVec.lean ====
/-
  The second pass: each row of `x` against the row of column sums, accumulated in a scratch column.

  The grid is 2 row tiles by 4 column tiles, walked column tile fastest: point t works on rows 1024·(t div 4) … of
  columns 2048·(t mod 4) …. At the first column tile of a row tile the body zeroes the scratch column; at every point it
  adds, row by row, the sum over the block's columns of the block of `x` times the block of the column-sum row; at the
  last column tile it writes the scratch column scaled by 3/4 into the output block, which is written back there and
  nowhere else. So after point t the scratch column holds the sums over the column tiles 0 … t mod 4 of the current row
  tile (`acc`), and the output block at the last column tile is that column, scaled.

  This module states what the body leaves in its four buffers in each of the three situations (first, middle, last
  column tile), the running scratch contents point by point, the region's invariant (the scratch column at `acc`, the
  first pass's buffers and the generator register untouched), the proof data and the body obligation, for any entry
  contents `V` of the arrays and any float instance.
-/
import proofs.«132313_j73315091744103_2_alg».proof.Proof.Gen.Kernel.Launch
import proofs.«132313_j73315091744103_2_alg».proof.Proof.Gen.Kernel.Skeleton
import proofs.«132313_j73315091744103_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.MatVec

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- "first column tile": the condition of the zeroing branch, as the body computes it from the grid coordinates. -/
abbrev isFirst (i : grid1.Coords) : Prop :=
  (Scalar.cmpi .ne (Scalar.extui (Scalar.cmpi .eq (BitVec.ofNat 32 (i 1).val) 0#32)) 0#32) = 1#1
/-- "last column tile": the condition of the write-out branch. -/
abbrev isLast (i : grid1.Coords) : Prop := k1_cond2 i = 1#1

theorem first_iff : ∀ t : Fin cfg1.N, isFirst (grid1.coords t) ↔ t.val % 4 = 0 :=
  (by decide +kernel : ∀ t : Fin grid1.N, isFirst (grid1.coords t) ↔ t.val % 4 = 0)
theorem last_iff : ∀ t : Fin cfg1.N, isLast (grid1.coords t) ↔ t.val % 4 = 3 :=
  (by decide +kernel : ∀ t : Fin grid1.N, isLast (grid1.coords t) ↔ t.val % 4 = 3)

/-- The two input windows are never idle; the output window is idle, and not written back, away from the last column
    tile. -/
theorem live_in0 : ∀ t : Fin cfg1.N, cfg1.idle 0 (grid1.coords t) = false := by decide +kernel
theorem live_in1 : ∀ t : Fin cfg1.N, cfg1.idle 1 (grid1.coords t) = false := by decide +kernel
theorem idle_out : ∀ t : Fin cfg1.N, ¬ isLast (grid1.coords t) → cfg1.idle 2 (grid1.coords t) = true := by decide +kernel
theorem noflush_out : ∀ t : Fin cfg1.N, ¬ isLast (grid1.coords t) → (cfg1.win 2).flush t = false := by decide +kernel
theorem live_out : ∀ t : Fin cfg1.N, isLast (grid1.coords t) → cfg1.idle 2 (grid1.coords t) = false := by decide +kernel

/-! ## The body on any whole staging memrefs, in its three situations -/

theorem zero2 : (![0, 0] : Fin 2 → ℕ) = fun _ => 0 := by funext a; fin_cases a <;> rfl

set_option maxHeartbeats 1000000 in
/-- First column tile (and not the last): the scratch column is zeroed, then the block's row sums of products are added;
    the output buffer is not touched. -/
theorem run_first (c : Dev nD) (E : Set ℕ) (i : grid1.Coords)
    (arg2 : Memref sig .tc .vmem S1024x2048 .f32) (harg2 : arg2.IsWhole)
    (arg3 : Memref sig .tc .vmem S1x2048 .f32) (harg3 : arg3.IsWhole)
    (arg4 : Memref sig .tc .vmem S1024x1 .f32) (harg4 : arg4.IsWhole)
    (arg5 : Memref sig .tc .vmem S1024x1 .f32) (harg5 : arg5.IsWhole)
    (hc0 : isFirst i) (hc1 : ¬ isLast i)
    (x0 : Vec F S1024x2048 .f32) (x1 : Vec F S1x2048 .f32) (d4 : Vec F S1024x1 .f32) (K : PUnit → sProp 𝕄) :
    iprop(owns (c : Thread nD τ) arg2 fullShare x0 ∗ owns (c : Thread nD τ) arg3 fullShare x1
        ∗ owns (c : Thread nD τ) arg4 fullShare d4
        ∗ (∃ d, owns (c : Thread nD τ) arg5 fullShare d)
        ∗ (iprop(owns (c : Thread nD τ) arg2 fullShare x0 ∗ owns (c : Thread nD τ) arg3 fullShare x1
            ∗ owns (c : Thread nD τ) arg4 fullShare d4
            ∗ owns (c : Thread nD τ) arg5 fullShare (k1_pay2 x0 x1 (k1_pay1 (F := F)))) -∗ K ⟨⟩))
      ⊢ wp frame (wpE (defs₀ (F := F)) Variants.none c none) E (cc1__matvec_kernel i arg2 harg2 arg3 harg3 arg4 harg4 arg5 harg5) K := by
  simp only [cc1__matvec_kernel_eq_skeleton]; unfold cc1__matvec_kernel_skel
  unfold owns
  iintro ⟨⟨%f0, %hf0, H0⟩, ⟨%f1, %hf1, H1⟩, ⟨%f2, %hf2, H2⟩, ⟨%ds, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_run_names
  rw [View.read_writes_eq_canon _ _ _ (fun y => ⟨_, List.mem_cons_self .., View.mem_set_unit_zero zero2 inb_S1024x1_S1024x1_0_0 y⟩),
    View.canon_cons_unit_zero zero2]
  rw [View.readCov_unit_zero (S := S1024x1) arg5.view zero2, View.readAt_eq_ld, View.readAt_eq_ld, harg2.read_unread,
    harg3.read_unread, View.ld_unit_zero (S := S1024x2048) zero2, View.ld_unit_zero (S := S1x2048) zero2]

set_option maxHeartbeats 1000000 in
/-- A middle column tile: the block's row sums of products are added to what the scratch column held; the output buffer
    is not touched. -/
theorem run_next (c : Dev nD) (E : Set ℕ) (i : grid1.Coords)
    (arg2 : Memref sig .tc .vmem S1024x2048 .f32) (harg2 : arg2.IsWhole)
    (arg3 : Memref sig .tc .vmem S1x2048 .f32) (harg3 : arg3.IsWhole)
    (arg4 : Memref sig .tc .vmem S1024x1 .f32) (harg4 : arg4.IsWhole)
    (arg5 : Memref sig .tc .vmem S1024x1 .f32) (harg5 : arg5.IsWhole)
    (hc0 : ¬ isFirst i) (hc1 : ¬ isLast i)
    (x0 : Vec F S1024x2048 .f32) (x1 : Vec F S1x2048 .f32) (d4 : Vec F S1024x1 .f32) (xs : Vec F S1024x1 .f32)
    (K : PUnit → sProp 𝕄) :
    iprop(owns (c : Thread nD τ) arg2 fullShare x0 ∗ owns (c : Thread nD τ) arg3 fullShare x1
        ∗ owns (c : Thread nD τ) arg4 fullShare d4
        ∗ owns (c : Thread nD τ) arg5 fullShare xs
        ∗ (iprop(owns (c : Thread nD τ) arg2 fullShare x0 ∗ owns (c : Thread nD τ) arg3 fullShare x1
            ∗ owns (c : Thread nD τ) arg4 fullShare d4
            ∗ owns (c : Thread nD τ) arg5 fullShare (k1_pay2 x0 x1 xs)) -∗ K ⟨⟩))
      ⊢ wp frame (wpE (defs₀ (F := F)) Variants.none c none) E (cc1__matvec_kernel i arg2 harg2 arg3 harg3 arg4 harg4 arg5 harg5) K := by
  simp only [cc1__matvec_kernel_eq_skeleton]; unfold cc1__matvec_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2
  obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_run_names
  rw [View.read_writes_eq_canon _ _ _ (fun y => ⟨_, List.mem_singleton_self _, View.mem_set_unit_zero zero2 inb_S1024x1_S1024x1_0_0 y⟩),
    View.canon_unit_zero zero2]
  rw [View.readAt_eq_ld, View.readAt_eq_ld, View.readAt_eq_ld, harg2.read_unread, harg3.read_unread, harg5.read_unread,
    View.ld_unit_zero (S := S1024x2048) zero2, View.ld_unit_zero (S := S1x2048) zero2,
    View.ld_unit_zero (S := S1024x1) zero2]

set_option maxHeartbeats 1000000 in
/-- The last column tile (and not the first): the block's row sums of products are added to the scratch column, and the
    scratch column, scaled, is written into the output buffer. -/
theorem run_last (c : Dev nD) (E : Set ℕ) (i : grid1.Coords)
    (arg2 : Memref sig .tc .vmem S1024x2048 .f32) (harg2 : arg2.IsWhole)
    (arg3 : Memref sig .tc .vmem S1x2048 .f32) (harg3 : arg3.IsWhole)
    (arg4 : Memref sig .tc .vmem S1024x1 .f32) (harg4 : arg4.IsWhole)
    (arg5 : Memref sig .tc .vmem S1024x1 .f32) (harg5 : arg5.IsWhole)
    (hc0 : ¬ isFirst i) (hc1 : isLast i)
    (x0 : Vec F S1024x2048 .f32) (x1 : Vec F S1x2048 .f32) (xs : Vec F S1024x1 .f32) (K : PUnit → sProp 𝕄) :
    iprop(owns (c : Thread nD τ) arg2 fullShare x0 ∗ owns (c : Thread nD τ) arg3 fullShare x1
        ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k1_pay3 (k1_pay2 x0 x1 xs))
            ∗ owns (c : Thread nD τ) arg5 fullShare (k1_pay2 x0 x1 xs)) -∗ K ⟨⟩))
      ⊢ wp frame (wpE (defs₀ (F := F)) Variants.none c none) E (cc1__matvec_kernel i arg2 harg2 arg3 harg3 arg4 harg4 arg5 harg5) K := by
  simp only [cc1__matvec_kernel_eq_skeleton]; unfold cc1__matvec_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (fun y => ⟨_, List.mem_singleton_self _, View.mem_set_unit_zero zero2 inb_S1024x1_S1024x1_0_0 y⟩),
      View.canon_unit_zero zero2]
    rw [View.readCov_unit_zero (S := S1024x1) arg5.view zero2]
    rw [View.readAt_eq_ld, View.readAt_eq_ld, View.readAt_eq_ld, harg2.read_unread, harg3.read_unread, harg5.read_unread,
      View.ld_unit_zero (S := S1024x2048) zero2, View.ld_unit_zero (S := S1x2048) zero2,
      View.ld_unit_zero (S := S1024x1) zero2]
  iexists _; isplitr
  swap; · iexact HS0
  ipureintro
  sl_unfold_run_names
  rw [View.read_writes_eq_canon _ _ _ (fun y => ⟨_, List.mem_singleton_self _, View.mem_set_unit_zero zero2 inb_S1024x1_S1024x1_0_0 y⟩),
    View.canon_unit_zero zero2]
  rw [View.readAt_eq_ld, View.readAt_eq_ld, View.readAt_eq_ld, harg2.read_unread, harg3.read_unread, harg5.read_unread,
    View.ld_unit_zero (S := S1024x2048) zero2, View.ld_unit_zero (S := S1x2048) zero2,
    View.ld_unit_zero (S := S1024x1) zero2]

/-! ## The blocks, the running scratch column, the invariant and the proof data, at entry contents `V` -/

section Data

variable (V : (c : Dev nD) → (b : Ref sig .tc) → Buf (Elt F) ((c : Thread nD τ).loc b))

/-- Window `w`'s block at point `t`, read off its array as the region finds it. -/
def blockIn (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input window's current staging buffer holds its block at every point, for any proof data over `V` whose
    body leaves the block in place. -/
theorem before_in0_of {c : Dev nD} (dat : Dat τ (Elt F) Unit ℕ (UR sig nD τ) ℕ cfg1 c) (hA : dat.A 0 = V c (Pipeline.arrRef spec1 0))
    (hafter : ∀ t, dat.after 0 t = blockIn V c 0 t) (t : Fin cfg1.N) (d) : dat.before 0 t d = blockIn V c 0 t :=
  (dat.before_in_eq_fetched 0 rfl (fun _ => rfl) (fun _ _ _ => rfl) (fun t => by rw [hafter]; unfold Dat.blockOf blockIn; rw [hA]; try rfl) t d).trans
    (by unfold Dat.fetched Dat.blockOf blockIn; rw [hA]; try rfl)

/-- The same for the second input window. -/
theorem before_in1_of {c : Dev nD} (dat : Dat τ (Elt F) Unit ℕ (UR sig nD τ) ℕ cfg1 c) (hA : dat.A 1 = V c (Pipeline.arrRef spec1 1))
    (hafter : ∀ t, dat.after 1 t = blockIn V c 1 t) (t : Fin cfg1.N) (d) : dat.before 1 t d = blockIn V c 1 t :=
  (dat.before_in_eq_fetched 1 rfl (fun _ => rfl) (fun _ _ _ => rfl) (fun t => by rw [hafter]; unfold Dat.blockOf blockIn; rw [hA]; try rfl) t d).trans
    (by unfold Dat.fetched Dat.blockOf blockIn; rw [hA]; try rfl)

/-- The scratch column after the body at position `n`: restarted from the zero column at each first column tile,
    otherwise what the point before left plus this point's row sums of products. -/
def acc (c : Dev nD) : (n : ℕ) → n < cfg1.N → Vec F S1024x1 .f32
  | 0, hn => k1_pay2 (blockIn V c 0 ⟨0, hn⟩) (blockIn V c 1 ⟨0, hn⟩) (k1_pay1 (F := F))
  | n + 1, hn =>
    if (n + 1) % 4 = 0 then k1_pay2 (blockIn V c 0 ⟨n + 1, hn⟩) (blockIn V c 1 ⟨n + 1, hn⟩) (k1_pay1 (F := F))
    else k1_pay2 (blockIn V c 0 ⟨n + 1, hn⟩) (blockIn V c 1 ⟨n + 1, hn⟩) (acc c n (Nat.lt_of_succ_lt hn))

theorem acc_first (c : Dev nD) (t : Fin cfg1.N) (h : t.val % 4 = 0) :
    acc V c t.val t.isLt = k1_pay2 (blockIn V c 0 t) (blockIn V c 1 t) (k1_pay1 (F := F)) := by
  obtain ⟨n, hn⟩ := t
  cases n with
  | zero => rfl
  | succ n => exact if_pos h

theorem acc_next (c : Dev nD) (t : Fin cfg1.N) (h : ¬ t.val % 4 = 0) :
    acc V c t.val t.isLt
      = k1_pay2 (blockIn V c 0 t) (blockIn V c 1 t) (acc V c (t.val - 1) (Nat.lt_of_le_of_lt (Nat.sub_le _ _) t.isLt)) := by
  obtain ⟨n, hn⟩ := t
  cases n with
  | zero => exact absurd (Nat.zero_mod _) h
  | succ n => exact (if_neg h).trans rfl

/-- The scratch column as a memref. -/
abbrev scM : Memref sig .tc .vmem S1024x1 .f32 := Memref.whole cc1_scratch0
/-- Each window's current staging memref at point `t`. -/
abbrev ms0 (t : Fin cfg1.N) : Memref sig .tc .vmem S1024x2048 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x2048 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .f32 := win1_2.stage (cfg1.slots t 2)
abbrev hs2 (t : Fin cfg1.N) : (ms2 t).IsWhole := hstage1_2 ((cfg1.slots t 2).cast nbuf1_2)

/-- What the launch hands a region of this pass: the first pass's staging buffers and scratch row, each whole at some
    contents, the scratch column at anything, the generator register. -/
theorem PhiA_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ d, owns (c : Thread nD τ) scM fullShare d)) ∗ (∃ r, prngReg c r)) := by
  unfold Pipeline.ΦA; rw [scopedRest1_eq]; simp only [scM, owns_whole]; rfl

/-- The region's invariant before position `n`: at the start what the launch hands over; afterwards the same with the
    scratch column at what the point before left. -/
def PhiS (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM fullShare (acc V c n hn)) ∗ (∃ r, prngReg c r))

theorem PhiS_succ (c : Dev nD) (n : ℕ) (hn : n < cfg1.N) :
    PhiS V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM fullShare (acc V c n hn)) ∗ (∃ r, prngReg c r)) := rfl

theorem PhiS_pos (c : Dev nD) (n : ℕ) (h : n ≤ cfg1.N) (hz : n ≠ 0) :
    PhiS V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM fullShare (acc V c (n - 1) (by omega))) ∗ (∃ r, prngReg c r)) := by
  cases n with
  | zero => exact absurd rfl hz
  | succ n => rfl

/-- At any position the invariant gives the launch's form back: the scratch column's named contents are forgotten. -/
theorem PhiS_any (c : Dev nD) (n : ℕ) (h : n ≤ cfg1.N) :
    PhiS V c n h ⊢ iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ d, owns (c : Thread nD τ) scM fullShare d)) ∗ (∃ r, prngReg c r)) := by
  cases n with
  | zero => rw [show PhiS V c 0 h = Pipeline.ΦA spec1 c from rfl, PhiA_eq]
  | succ n =>
    rw [PhiS_succ]
    iintro ⟨⟨Ha, Hb, Hc, Hd, He, HS⟩, Hg⟩
    isplitl [Ha Hb Hc Hd He HS]
    · isplitl [Ha]; · iexact Ha
      isplitl [Hb]; · iexact Hb
      isplitl [Hc]; · iexact Hc
      isplitl [Hd]; · iexact Hd
      isplitl [He]; · iexact He
      iexists _; iexact HS
    iexact Hg

/-- The proof data of the second pass on core `c`: the arrays as the region finds them; after the body at point `t` each
    input's buffer at its block and the output's at the scratch column's contents, scaled; the invariant `PhiS`; nothing
    owed; full shares. -/
def dat (c : Dev nD) : Dat τ (Elt F) Unit ℕ (UR sig nD τ) ℕ cfg1 c where
  A w := V c (Pipeline.arrRef spec1 w)
  after w t := match w with
    | ⟨0, _⟩ => blockIn V c 0 t
    | ⟨1, _⟩ => blockIn V c 1 t
    | ⟨2, _⟩ => k1_pay3 (acc V c t.val t.isLt)
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_in0 (c : Dev nD) (t : Fin cfg1.N) : (dat V c).after 0 t = blockIn V c 0 t := by dsimp only [dat]
theorem after_in1 (c : Dev nD) (t : Fin cfg1.N) : (dat V c).after 1 t = blockIn V c 1 t := by dsimp only [dat]
theorem after_out (c : Dev nD) (t : Fin cfg1.N) : (dat V c).after 2 t = k1_pay3 (acc V c t.val t.isLt) := by dsimp only [dat]

theorem before_in0 (c : Dev nD) (t : Fin cfg1.N) (d) : (dat V c).before 0 t d = blockIn V c 0 t :=
  before_in0_of V (dat V c) (A_eq V c 0) (after_in0 V c) t d
theorem before_in1 (c : Dev nD) (t : Fin cfg1.N) (d) : (dat V c).before 1 t d = blockIn V c 1 t :=
  before_in1_of V (dat V c) (A_eq V c 1) (after_in1 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the two inputs' memrefs hold their blocks; the point's position in its row tile says which of
    the three situations applies; the invariant hands the body the scratch column at what the point before left (at
    anything at a first column tile) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1]
  rw [show (dat V c).owesAt () t.succ = (dat V c).owesAt () t.castSucc from rfl]
  rw [show (dat V c).Φ t.succ = PhiS V c (t.val + 1) t.isLt from rfl, PhiS_succ]
  have hN : t.val < 8 := lt_of_lt_of_eq t.isLt (show cfg1.N = 8 from N_1)
  rw [show (dat V c).leavesExact 0 t = owns (c : Thread nD τ) (ms0 t) fullShare ((dat V c).after 0 t) from by
    unfold Dat.leavesExact; rw [live_in0 t], after_in0]
  rw [show (dat V c).leavesExact 1 t = owns (c : Thread nD τ) (ms1 t) fullShare ((dat V c).after 1 t) from by
    unfold Dat.leavesExact; rw [live_in1 t], after_in1]
  rw [PhiS_castSucc V c t]
  by_cases h0 : t.val % 4 = 0
  · have h1 : ¬ t.val % 4 = 3 := by omega
    rw [Dat.leavesExact_idle (dat V c) 2 t (idle_out t (fun h => h1 ((last_iff t).mp h))) (noflush_out t (fun h => h1 ((last_iff t).mp h)))]
    rw [acc_first V c t h0]
    have hany := PhiS_any V c t.val (Nat.le_of_lt t.isLt)
    iintro ⟨HP, Ho, ⟨%d0, H0⟩, ⟨%d1, H1⟩, ⟨%d2, H2⟩⟩
    ihave HP' := hany $$ HP
    icases HP' with ⟨⟨Ha, Hb, Hc, Hd, He, HS⟩, Hg⟩
    iapply (run_first c Set.univ (grid1.coords t) _ _ _ _ _ _ _ _ ((first_iff t).mpr h0) (fun h => h1 ((last_iff t).mp h)) (blockIn V c 0 t) (blockIn V c 1 t) _ _)
    isplitl [H0]; · iexact H0
    isplitl [H1]; · iexact H1
    isplitl [H2]; · iexact H2
    isplitl [HS]; · iexact HS
    iintro ⟨H0, H1, H2, HS⟩
    isplitl [Ha Hb Hc Hd He HS Hg]
    · isplitl [Ha Hb Hc Hd He HS]
      · isplitl [Ha]; · iexact Ha
        isplitl [Hb]; · iexact Hb
        isplitl [Hc]; · iexact Hc
        isplitl [Hd]; · iexact Hd
        isplitl [He]; · iexact He
        iexact HS
      iexact Hg
    isplitl [Ho]; · iexact Ho
    isplitl [H0]; · iexact H0
    isplitl [H1]; · iexact H1
    iexists _; iexact H2
  · have hz : t.val ≠ 0 := by intro h; rw [h] at h0; exact h0 (Nat.zero_mod _)
    rw [PhiS_pos V c _ _ hz, acc_next V c t h0]
    by_cases h1 : t.val % 4 = 3
    · rw [show (dat V c).leavesExact 2 t = owns (c : Thread nD τ) (ms2 t) fullShare ((dat V c).after 2 t) from by
        unfold Dat.leavesExact; rw [live_out t ((last_iff t).mpr h1)], after_out, acc_next V c t h0]
      iintro ⟨⟨⟨Ha, Hb, Hc, Hd, He, HS⟩, Hg⟩, Ho, ⟨%d0, H0⟩, ⟨%d1, H1⟩, ⟨%d2, H2⟩⟩
      iapply (run_last c Set.univ (grid1.coords t) _ _ _ _ _ _ _ _ (fun h => h0 ((first_iff t).mp h)) ((last_iff t).mpr h1) (blockIn V c 0 t) (blockIn V c 1 t) _ _)
      isplitl [H0]; · iexact H0
      isplitl [H1]; · iexact H1
      isplitl [H2]; · iexists _; iexact H2
      isplitl [HS]; · iexact HS
      iintro ⟨H0, H1, H2, HS⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexact H2
    · rw [Dat.leavesExact_idle (dat V c) 2 t (idle_out t (fun h => h1 ((last_iff t).mp h))) (noflush_out t (fun h => h1 ((last_iff t).mp h)))]
      iintro ⟨⟨⟨Ha, Hb, Hc, Hd, He, HS⟩, Hg⟩, Ho, ⟨%d0, H0⟩, ⟨%d1, H1⟩, ⟨%d2, H2⟩⟩
      iapply (run_next c Set.univ (grid1.coords t) _ _ _ _ _ _ _ _ (fun h => h0 ((first_iff t).mp h)) (fun h => h1 ((last_iff t).mp h)) (blockIn V c 0 t) (blockIn V c 1 t) _ _ _)
      isplitl [H0]; · iexact H0
      isplitl [H1]; · iexact H1
      isplitl [H2]; · iexact H2
      isplitl [HS]; · iexact HS
      iintro ⟨H0, H1, H2, HS⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl]
  exact BI.Entails.refl _

/-- After the last point the invariant gives the launch's form back. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl, PhiA_eq]
  exact PhiS_any V c _ _

end Data

end Cert.Kernel.MatVec

end
-- ==== Proof.KwRun.lean ====
/-
  The run of the whole program: the two passes as the two kernel regions of @main, one after the other.

  Between the regions a core's unscoped buffers are named: at launch the memory `m`; after the first pass the same with
  the column-sum row at what that pass's write-backs leave; after the second pass the same again with the result column
  at what the second pass's write-backs leave. Each region is entered from "every unscoped buffer at the boundary's
  contents, the generator register at some state, nothing owed" and left at the next boundary's; its arrays are split
  out of the unscoped buffers on entry and put back on exit, and its invariant starts from and returns to the scoped
  buffers at anything. Every weakly fair execution of @main then terminates with every unscoped buffer at the last
  boundary's contents — from which the argument arrays are read back unchanged and the result column is read as the
  second pass's final array.
-/
import proofs.«132313_j73315091744103_2_alg».proof.Proof.KwColSum
import proofs.«132313_j73315091744103_2_alg».proof.Proof.KwMatVec

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the three boundaries -/

/-- Core `c`'s buffers at launch. -/
abbrev W0 : Dev nD → Valuation τ sig (Elt F) := fun c b => (s₀ m ρ).mem ((c : Dev nD), b)
/-- The same read at the TensorCore's references (what the first pass's proof data take). -/
abbrev V0 : (c : Dev nD) → (b : Ref sig .tc) → Buf (Elt F) ((c : Thread nD τ).loc b) := fun c b => W0 m ρ c b

/-- After the first pass: its arrays at what the pipeline leaves, every other buffer as launched. -/
def W1 (c : Dev nD) : Valuation τ sig (Elt F) :=
  Pipeline.withArrays spec0 c (W0 m ρ c) fun w => (ColSum.dat (V0 m ρ) c).arrAt w cfg0.N
theorem W1_arr (c : Dev nD) (w : Fin cfg0.W) :
    W1 m ρ c (Proc.devRef .tc (Pipeline.arrRef spec0 w)) = (ColSum.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (ColSum.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second pass: its arrays at what the pipeline leaves, every other buffer as the first pass left it. -/
def W2 (c : Dev nD) : Valuation τ sig (Elt F) :=
  Pipeline.withArrays spec1 c (W1 m ρ c) fun w => (MatVec.dat (V1 m ρ) c).arrAt w cfg1.N
theorem W2_arr (c : Dev nD) (w : Fin cfg1.W) :
    W2 m ρ c (Proc.devRef .tc (Pipeline.arrRef spec1 w)) = (MatVec.dat (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (MatVec.dat (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched, and the result column is the second pass's final array -/

/-- `x` is an input of the second pass and no array of the first. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((MatVec.dat (V1 m ρ) c).arrAt_in 0 rfl _).trans (MatVec.A_eq (V1 m ρ) c 0))
    _ = W0 m ρ c (Proc.devRef .tc main_arg0) := W1_of_ne m ρ c main_arg0 (by decide)
    _ = m ((c : Thread nD τ).loc main_arg0) := rfl
/-- `W` is the input of the first pass and no array of the second. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 0).trans (((ColSum.dat (V0 m ρ) c).arrAt_in 0 rfl _).trans (ColSum.A_eq (V0 m ρ) c 0))
    _ = m ((c : Thread nD τ).loc main_arg1) := rfl
/-- The result column at the end is the second pass's output array after all its write-backs. -/
theorem W2_main_v1 (c : Dev nD) : W2 m ρ c (Proc.devRef .tc main_v1) = (MatVec.dat (V1 m ρ) c).arrAt 2 cfg1.N :=
  W2_arr m ρ c 2
/-- The column-sum row the second pass reads is the first pass's output array after all its write-backs. -/
theorem V1_main_v0 (c : Dev nD) : V1 m ρ c main_v0 = (ColSum.dat (V0 m ρ) c).arrAt 1 cfg0.N :=
  W1_arr m ρ c 1
/-- `x` as the second pass finds it is `x` as launched. -/
theorem V1_main_arg0 (c : Dev nD) : V1 m ρ c main_arg0 = m ((c : Thread nD τ).loc main_arg0) :=
  W1_of_ne m ρ c main_arg0 (by decide)

/-! ## The proof data family and the thread state -/

/-- No pipeline has a prefetched table. -/
abbrev admK : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admK p) c
  | ⟨0, _⟩ => fun c => ColSum.dat (V0 m ρ) c
  | ⟨1, _⟩ => fun c => MatVec.dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- The first pass over the thread state: entered from every unscoped buffer at `W0`, left at `W1`. -/
def reg0 : Pipeline.RegionSeg (pcfgs (F := F)) admK (pdats m ρ) () defs₀ 𝒱₀ L lv 0 where
  win := launch0.win.to₀
  block_pos := launch0.block_pos
  stage_whole := launch0.stage_whole
  K := PEmpty
  osem k := k.elim
  ho := Pipeline.OwnSemFacts.none _
  hbody c := (ColSum.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) admK (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (ColSum.hout (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pass over the thread state: entered from every unscoped buffer at `W1`, left at `W2`. -/
def reg1 : Pipeline.RegionSeg (pcfgs (F := F)) admK (pdats m ρ) () defs₀ 𝒱₀ L lv 1 where
  win := launch1.win.to₀
  block_pos := launch1.block_pos
  stage_whole := launch1.stage_whole
  K := PEmpty
  osem k := k.elim
  ho := Pipeline.OwnSemFacts.none _
  hbody c := (MatVec.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) admK (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (MatVec.hout (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two segments, and the launch -/

abbrev segs : List (Pipeline.Seg (pcfgs (F := F)) admK (pdats m ρ) () defs₀ 𝒱₀ L lv) :=
  [ .region (reg0 m ρ), .region (reg1 m ρ) ]
theorem main_run (c : Dev nD) : main (F := F) c = Pipeline.Seg.run (segs m ρ) :=
  main_segs admK (pdats m ρ) () 𝒱₀ L lv (reg0 m ρ) (reg1 m ρ) c

set_option backward.isDefEq.respectTransparency.types false in
/-- THE RUN: from any memory with zero counters every weakly fair execution of @main terminates, nothing faulting, and
    every final state has every unscoped buffer at the last boundary's contents `W2`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W2 m ρ c b) :=
  Pipeline.θ_run_regions_kit (pcfgs (F := F)) admK (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W2_main_arg0 m ρ c),
     (h c _ (mem_uc main_arg1 (by decide))).trans (W2_main_arg1 m ρ c)⟩) (run_main m ρ)

/-- The run with the result column named: it ends at the second pass's output array after all its write-backs, the
    arguments as launched. -/
theorem run_value : θ_run defs (onTc (τ := τ) (main (F := F))) ⟨m, fun _ => 0, ρ⟩ (fun r => ∀ c : Dev nD,
      r.2.mem ((c.tc : Thread nD τ).loc main_v1) = (MatVec.dat (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c)⟩) (run_main m ρ)

end Cert.Kernel.Run

end
-- ==== Proof.KiColSum.lean ====
/-
  The first pass: column sums of the weight matrix, accumulated in a scratch row.

  The grid is 2 column tiles by 16 row tiles, walked row tile fastest: point t works on rows 512·(t mod 16) … of columns
  4096·(t div 16) …. At the first row tile of a column tile the body zeroes the scratch row; at every point it adds the
  block's column sums to it; at the last row tile it copies the scratch row into the output block, which is written
  back there and nowhere else. So after point t the scratch row holds the sums over the row tiles 0 … t mod 16 of the
  current column tile (`acc`), and the output block at the last row tile is that row.

  This module states what the body leaves in its three buffers in each of the three situations (first, middle, last row
  tile), the running scratch contents point by point, the region's invariant (the scratch row at `acc`, the second
  pass's buffers and the generator register untouched), the proof data and the body obligation, for any entry contents
  `V` of the arrays and any float instance.
-/
import proofs.«132313_j73315091744103_2_alg».proof.Proof.Gen.KernelIdeal.Launch
import proofs.«132313_j73315091744103_2_alg».proof.Proof.Gen.KernelIdeal.Skeleton
import proofs.«132313_j73315091744103_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.ColSum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- "first row tile": the condition of the zeroing branch, as the body computes it from the grid coordinates. -/
abbrev isFirst (i : grid0.Coords) : Prop :=
  (Scalar.cmpi .ne (Scalar.extui (Scalar.cmpi .eq (BitVec.ofNat 32 (i 1).val) 0#32)) 0#32) = 1#1
/-- "last row tile": the condition of the copy-out branch. -/
abbrev isLast (i : grid0.Coords) : Prop := k0_cond2 i = 1#1

theorem first_iff : ∀ t : Fin cfg0.N, isFirst (grid0.coords t) ↔ t.val % 16 = 0 :=
  (by decide +kernel : ∀ t : Fin grid0.N, isFirst (grid0.coords t) ↔ t.val % 16 = 0)
theorem last_iff : ∀ t : Fin cfg0.N, isLast (grid0.coords t) ↔ t.val % 16 = 15 :=
  (by decide +kernel : ∀ t : Fin grid0.N, isLast (grid0.coords t) ↔ t.val % 16 = 15)

/-- The input window is never idle; the output window is idle, and not written back, away from the last row tile. -/
theorem live_in : ∀ t : Fin cfg0.N, cfg0.idle 0 (grid0.coords t) = false := by decide +kernel
theorem idle_out : ∀ t : Fin cfg0.N, ¬ isLast (grid0.coords t) → cfg0.idle 1 (grid0.coords t) = true := by decide +kernel
theorem noflush_out : ∀ t : Fin cfg0.N, ¬ isLast (grid0.coords t) → (cfg0.win 1).flush t = false := by decide +kernel
theorem live_out : ∀ t : Fin cfg0.N, isLast (grid0.coords t) → cfg0.idle 1 (grid0.coords t) = false := by decide +kernel

/-! ## The body on any whole staging memrefs, in its three situations -/

theorem zero2 : (![0, 0] : Fin 2 → ℕ) = fun _ => 0 := by funext a; fin_cases a <;> rfl

set_option maxHeartbeats 1000000 in
/-- First row tile (and not the last): the scratch row is zeroed, then the block's column sums are added; the output
    buffer is not touched. -/
theorem run_first (c : Dev nD) (E : Set ℕ) (i : grid0.Coords)
    (arg2 : Memref sig .tc .vmem S512x4096 .f32) (harg2 : arg2.IsWhole)
    (arg3 : Memref sig .tc .vmem S1x4096 .f32) (harg3 : arg3.IsWhole)
    (arg4 : Memref sig .tc .vmem S1x4096 .f32) (harg4 : arg4.IsWhole)
    (hc0 : isFirst i) (hc1 : ¬ isLast i)
    (x0 : Vec F S512x4096 .f32) (d3 : Vec F S1x4096 .f32) (K : PUnit → sProp 𝕄) :
    iprop(owns (c : Thread nD τ) arg2 fullShare x0 ∗ owns (c : Thread nD τ) arg3 fullShare d3
        ∗ (∃ d, owns (c : Thread nD τ) arg4 fullShare d)
        ∗ (iprop(owns (c : Thread nD τ) arg2 fullShare x0 ∗ owns (c : Thread nD τ) arg3 fullShare d3
            ∗ owns (c : Thread nD τ) arg4 fullShare (k0_pay2 (k0_pay1 (F := F)) x0)) -∗ K ⟨⟩))
      ⊢ wp frame (wpE (defs₀ (F := F)) Variants.none c none) E (cc0__colsum_kernel i arg2 harg2 arg3 harg3 arg4 harg4) K := by
  simp only [cc0__colsum_kernel_eq_skeleton]; unfold cc0__colsum_kernel_skel
  unfold owns
  iintro ⟨⟨%f0, %hf0, H0⟩, ⟨%f1, %hf1, H1⟩, ⟨%ds, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_run_names
  rw [View.read_writes_eq_canon _ _ _ (fun y => ⟨_, List.mem_cons_self .., View.mem_set_unit_zero zero2 inb_S1x4096_S1x4096_0_0 y⟩),
    View.canon_cons_unit_zero zero2]
  rw [View.readCov_unit_zero (S := S1x4096) arg4.view zero2, View.readAt_eq_ld, harg2.read_unread,
    View.ld_unit_zero (S := S512x4096) zero2]

set_option maxHeartbeats 1000000 in
/-- A middle row tile: the block's column sums are added to what the scratch row held; the output buffer is not touched. -/
theorem run_next (c : Dev nD) (E : Set ℕ) (i : grid0.Coords)
    (arg2 : Memref sig .tc .vmem S512x4096 .f32) (harg2 : arg2.IsWhole)
    (arg3 : Memref sig .tc .vmem S1x4096 .f32) (harg3 : arg3.IsWhole)
    (arg4 : Memref sig .tc .vmem S1x4096 .f32) (harg4 : arg4.IsWhole)
    (hc0 : ¬ isFirst i) (hc1 : ¬ isLast i)
    (x0 : Vec F S512x4096 .f32) (d3 : Vec F S1x4096 .f32) (xs : Vec F S1x4096 .f32) (K : PUnit → sProp 𝕄) :
    iprop(owns (c : Thread nD τ) arg2 fullShare x0 ∗ owns (c : Thread nD τ) arg3 fullShare d3
        ∗ owns (c : Thread nD τ) arg4 fullShare xs
        ∗ (iprop(owns (c : Thread nD τ) arg2 fullShare x0 ∗ owns (c : Thread nD τ) arg3 fullShare d3
            ∗ owns (c : Thread nD τ) arg4 fullShare (k0_pay2 xs x0)) -∗ K ⟨⟩))
      ⊢ wp frame (wpE (defs₀ (F := F)) Variants.none c none) E (cc0__colsum_kernel i arg2 harg2 arg3 harg3 arg4 harg4) K := by
  simp only [cc0__colsum_kernel_eq_skeleton]; unfold cc0__colsum_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [View.read_writes_eq_canon _ _ _ (fun y => ⟨_, List.mem_singleton_self _, View.mem_set_unit_zero zero2 inb_S1x4096_S1x4096_0_0 y⟩),
    View.canon_unit_zero zero2]
  rw [View.readAt_eq_ld, View.readAt_eq_ld, harg4.read_unread, harg2.read_unread,
    View.ld_unit_zero (S := S1x4096) zero2, View.ld_unit_zero (S := S512x4096) zero2]

set_option maxHeartbeats 1000000 in
/-- The last row tile (and not the first): the block's column sums are added to the scratch row, and the scratch row is
    copied into the output buffer. -/
theorem run_last (c : Dev nD) (E : Set ℕ) (i : grid0.Coords)
    (arg2 : Memref sig .tc .vmem S512x4096 .f32) (harg2 : arg2.IsWhole)
    (arg3 : Memref sig .tc .vmem S1x4096 .f32) (harg3 : arg3.IsWhole)
    (arg4 : Memref sig .tc .vmem S1x4096 .f32) (harg4 : arg4.IsWhole)
    (hc0 : ¬ isFirst i) (hc1 : isLast i)
    (x0 : Vec F S512x4096 .f32) (xs : Vec F S1x4096 .f32) (K : PUnit → sProp 𝕄) :
    iprop(owns (c : Thread nD τ) arg2 fullShare x0 ∗ (∃ d, owns (c : Thread nD τ) arg3 fullShare d)
        ∗ owns (c : Thread nD τ) arg4 fullShare xs
        ∗ (iprop(owns (c : Thread nD τ) arg2 fullShare x0 ∗ owns (c : Thread nD τ) arg3 fullShare (k0_pay2 xs x0)
            ∗ owns (c : Thread nD τ) arg4 fullShare (k0_pay2 xs x0)) -∗ K ⟨⟩))
      ⊢ wp frame (wpE (defs₀ (F := F)) Variants.none c none) E (cc0__colsum_kernel i arg2 harg2 arg3 harg3 arg4 harg4) K := by
  simp only [cc0__colsum_kernel_eq_skeleton]; unfold cc0__colsum_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hc0 | exact hc1)
  sl_step
  iapply Hk
  have e4 : View.read (Elt F) arg4.view (arg4.view.writes (Elt F) (harg4.unread xs)
      [⟨Rect.unit ![0, 0] S1x4096.size inb_S1x4096_S1x4096_0_0,
        k0_pay2 (View.readAt (Elt F) arg4.view (Rect.unit ![0, 0] S1x4096.size inb_S1x4096_S1x4096_0_0).toLoadRect (harg4.unread xs))
          (View.readAt (Elt F) arg2.view (Rect.unit ![0, 0] S512x4096.size inb_S512x4096_S512x4096_0_0).toLoadRect (harg2.unread x0))⟩])
      = k0_pay2 xs x0 := by
    rw [View.read_writes_eq_canon _ _ _ (fun y => ⟨_, List.mem_singleton_self _, View.mem_set_unit_zero zero2 inb_S1x4096_S1x4096_0_0 y⟩),
      View.canon_unit_zero zero2]
    rw [View.readAt_eq_ld, View.readAt_eq_ld, harg4.read_unread, harg2.read_unread,
      View.ld_unit_zero (S := S1x4096) zero2, View.ld_unit_zero (S := S512x4096) zero2]
  isplitl [H0]
  · iexists _; isplitr; · ipureintro; exact harg2.read_unread _
    iexact H0
  isplitl [H1]
  · iexists _; isplitr
    swap; · iexact H1
    ipureintro
    sl_unfold_run_names
    rw [View.read_writes_eq_canon _ _ _ (fun y => ⟨_, List.mem_singleton_self _, View.mem_set_unit_zero zero2 inb_S1x4096_S1x4096_0_0 y⟩),
      View.canon_unit_zero zero2]
    rw [View.readCov_unit_zero (S := S1x4096) arg4.view zero2]
    rw [View.readAt_eq_ld, View.readAt_eq_ld, harg4.read_unread, harg2.read_unread,
      View.ld_unit_zero (S := S1x4096) zero2, View.ld_unit_zero (S := S512x4096) zero2]
  iexists _; isplitr
  swap; · iexact HS0
  ipureintro
  sl_unfold_run_names
  exact e4

/-! ## The blocks, the running scratch row, the invariant and the proof data, at entry contents `V` -/

section Data

variable (V : (c : Dev nD) → (b : Ref sig .tc) → Buf (Elt F) ((c : Thread nD τ).loc b))

/-- Window `w`'s block at point `t`, read off its array as the region finds it. -/
def blockIn (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data over `V` whose body
    leaves the block in place. -/
theorem before_in_of {c : Dev nD} (dat : Dat τ (Elt F) Unit ℕ (UR sig nD τ) ℕ cfg0 c) (hA : dat.A 0 = V c (Pipeline.arrRef spec0 0))
    (hafter : ∀ t, dat.after 0 t = blockIn V c 0 t) (t : Fin cfg0.N) (d) : dat.before 0 t d = blockIn V c 0 t :=
  (dat.before_in_eq_fetched 0 rfl (fun _ => rfl) (fun _ _ _ => rfl) (fun t => by rw [hafter]; unfold Dat.blockOf blockIn; rw [hA]; try rfl) t d).trans
    (by unfold Dat.fetched Dat.blockOf blockIn; rw [hA]; try rfl)

/-- The scratch row after the body at position `n`: restarted from the zero row at each first row tile, otherwise what
    the point before left plus this block's column sums. -/
def acc (c : Dev nD) : (n : ℕ) → n < cfg0.N → Vec F S1x4096 .f32
  | 0, hn => k0_pay2 (k0_pay1 (F := F)) (blockIn V c 0 ⟨0, hn⟩)
  | n + 1, hn =>
    if (n + 1) % 16 = 0 then k0_pay2 (k0_pay1 (F := F)) (blockIn V c 0 ⟨n + 1, hn⟩)
    else k0_pay2 (acc c n (Nat.lt_of_succ_lt hn)) (blockIn V c 0 ⟨n + 1, hn⟩)

theorem acc_first (c : Dev nD) (t : Fin cfg0.N) (h : t.val % 16 = 0) :
    acc V c t.val t.isLt = k0_pay2 (k0_pay1 (F := F)) (blockIn V c 0 t) := by
  obtain ⟨n, hn⟩ := t
  cases n with
  | zero => rfl
  | succ n => exact if_pos h

theorem acc_next (c : Dev nD) (t : Fin cfg0.N) (h : ¬ t.val % 16 = 0) :
    acc V c t.val t.isLt = k0_pay2 (acc V c (t.val - 1) (Nat.lt_of_le_of_lt (Nat.sub_le _ _) t.isLt)) (blockIn V c 0 t) := by
  obtain ⟨n, hn⟩ := t
  cases n with
  | zero => exact absurd (Nat.zero_mod _) h
  | succ n => exact (if_neg h).trans rfl

/-- The scratch row as a memref. -/
abbrev scM : Memref sig .tc .vmem S1x4096 .f32 := Memref.whole cc0_scratch0
/-- Each window's current staging memref at point `t`. -/
abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096 .f32 := win0_1.stage (cfg0.slots t 1)
abbrev hs1 (t : Fin cfg0.N) : (ms1 t).IsWhole := hstage0_1 ((cfg0.slots t 1).cast nbuf0_1)

/-- The scoped buffers the first pass never touches (the second pass's staging buffers and scratch column), each whole at
    some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the launch hands a region of this pass: the scratch row at anything, the other scoped buffers, the generator register. -/
theorem PhiA_eq (c : Dev nD) :
    (Pipeline.ΦA spec0 c : sProp 𝕄)
      = iprop(((∃ d, owns (c : Thread nD τ) scM fullShare d) ∗ others c) ∗ (∃ r, prngReg c r)) := by
  unfold Pipeline.ΦA others; rw [scopedRest0_eq]; simp only [scM, owns_whole]; rfl

/-- The region's invariant before position `n`: at the start what the launch hands over; afterwards the same with the
    scratch row at what the point before left. -/
def PhiS (c : Dev nD) : (n : ℕ) → n ≤ cfg0.N → sProp 𝕄
  | 0, _ => Pipeline.ΦA spec0 c
  | n + 1, hn => iprop((owns (c : Thread nD τ) scM fullShare (acc V c n hn) ∗ others c) ∗ (∃ r, prngReg c r))

theorem PhiS_succ (c : Dev nD) (n : ℕ) (hn : n < cfg0.N) :
    PhiS V c (n + 1) hn = iprop((owns (c : Thread nD τ) scM fullShare (acc V c n hn) ∗ others c) ∗ (∃ r, prngReg c r)) := rfl

theorem PhiS_pos (c : Dev nD) (n : ℕ) (h : n ≤ cfg0.N) (hz : n ≠ 0) :
    PhiS V c n h = iprop((owns (c : Thread nD τ) scM fullShare (acc V c (n - 1) (by omega)) ∗ others c) ∗ (∃ r, prngReg c r)) := by
  cases n with
  | zero => exact absurd rfl hz
  | succ n => rfl

/-- At any position the invariant gives the launch's form back: the scratch row's named contents are forgotten. -/
theorem PhiS_any (c : Dev nD) (n : ℕ) (h : n ≤ cfg0.N) :
    PhiS V c n h ⊢ iprop(((∃ d, owns (c : Thread nD τ) scM fullShare d) ∗ others c) ∗ (∃ r, prngReg c r)) := by
  cases n with
  | zero => rw [show PhiS V c 0 h = Pipeline.ΦA spec0 c from rfl, PhiA_eq]
  | succ n =>
    rw [PhiS_succ]
    iintro ⟨⟨HS, Ho⟩, Hg⟩
    isplitl [HS Ho]
    · isplitl [HS]
      · iexists _; iexact HS
      iexact Ho
    iexact Hg

/-- The proof data of the first pass on core `c`: the arrays as the region finds them; after the body at point `t` the
    input's buffer at its block and the output's at the scratch row's contents; the invariant `PhiS`; nothing owed;
    full shares. -/
def dat (c : Dev nD) : Dat τ (Elt F) Unit ℕ (UR sig nD τ) ℕ cfg0 c where
  A w := V c (Pipeline.arrRef spec0 w)
  after w t := match w with
    | ⟨0, _⟩ => blockIn V c 0 t
    | ⟨1, _⟩ => acc V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_in (c : Dev nD) (t : Fin cfg0.N) : (dat V c).after 0 t = blockIn V c 0 t := by dsimp only [dat]
theorem after_out (c : Dev nD) (t : Fin cfg0.N) : (dat V c).after 1 t = acc V c t.val t.isLt := by dsimp only [dat]

theorem before_in (c : Dev nD) (t : Fin cfg0.N) (d) : (dat V c).before 0 t d = blockIn V c 0 t :=
  before_in_of V (dat V c) (A_eq V c 0) (after_in V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point: the input's memref holds its block; the point's position in its column tile says which of the
    three situations applies; the invariant hands the body the scratch row at what the point before left (at anything
    at a first row tile) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  rw [show (dat V c).leavesExact 0 t = owns (c : Thread nD τ) (ms0 t) fullShare ((dat V c).after 0 t) from by
    unfold Dat.leavesExact; rw [live_in t], after_in]
  rw [PhiS_castSucc V c t]
  by_cases h0 : t.val % 16 = 0
  · have h1 : ¬ t.val % 16 = 15 := by omega
    rw [Dat.leavesExact_idle (dat V c) 1 t (idle_out t (fun h => h1 ((last_iff t).mp h))) (noflush_out t (fun h => h1 ((last_iff t).mp h)))]
    rw [acc_first V c t h0]
    have hany := PhiS_any V c t.val (Nat.le_of_lt t.isLt)
    iintro ⟨HP, Ho, ⟨%d0, H0⟩, ⟨%d1, H1⟩⟩
    ihave HP' := hany $$ HP
    icases HP' with ⟨⟨HS, Hoth⟩, Hg⟩
    iapply (run_first c Set.univ (grid0.coords t) _ _ _ _ _ _ ((first_iff t).mpr h0) (fun h => h1 ((last_iff t).mp h)) (blockIn V c 0 t) _ _)
    isplitl [H0]; · iexact H0
    isplitl [H1]; · iexact H1
    isplitl [HS]; · iexact HS
    iintro ⟨H0, H1, HS⟩
    isplitl [HS Hoth Hg]
    · isplitl [HS Hoth]
      · isplitl [HS]; · iexact HS
        iexact Hoth
      iexact Hg
    isplitl [Ho]; · iexact Ho
    isplitl [H0]; · iexact H0
    iexists _; iexact H1
  · have hz : t.val ≠ 0 := by intro h; rw [h] at h0; exact h0 (Nat.zero_mod _)
    rw [PhiS_pos V c _ _ hz, acc_next V c t h0]
    by_cases h1 : t.val % 16 = 15
    · rw [show (dat V c).leavesExact 1 t = owns (c : Thread nD τ) (ms1 t) fullShare ((dat V c).after 1 t) from by
        unfold Dat.leavesExact; rw [live_out t ((last_iff t).mpr h1)], after_out, acc_next V c t h0]
      iintro ⟨⟨⟨HS, Hoth⟩, Hg⟩, Ho, ⟨%d0, H0⟩, ⟨%d1, H1⟩⟩
      iapply (run_last c Set.univ (grid0.coords t) _ _ _ _ _ _ (fun h => h0 ((first_iff t).mp h)) ((last_iff t).mpr h1) (blockIn V c 0 t) _ _)
      isplitl [H0]; · iexact H0
      isplitl [H1]; · iexists _; iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      iexact H1
    · rw [Dat.leavesExact_idle (dat V c) 1 t (idle_out t (fun h => h1 ((last_iff t).mp h))) (noflush_out t (fun h => h1 ((last_iff t).mp h)))]
      iintro ⟨⟨⟨HS, Hoth⟩, Hg⟩, Ho, ⟨%d0, H0⟩, ⟨%d1, H1⟩⟩
      iapply (run_next c Set.univ (grid0.coords t) _ _ _ _ _ _ (fun h => h0 ((first_iff t).mp h)) (fun h => h1 ((last_iff t).mp h)) (blockIn V c 0 t) _ _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      iexists _; iexact H1

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl]
  exact BI.Entails.refl _

/-- After the last point the invariant gives the launch's form back. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl, PhiA_eq]
  exact PhiS_any V c _ _

end Data

end Cert.KernelIdeal.ColSum

end
-- ==== Proof.KiMatVec.lean ====
/-
  The second pass: each row of `x` against the row of column sums, accumulated in a scratch column.

  The grid is 2 row tiles by 4 column tiles, walked column tile fastest: point t works on rows 1024·(t div 4) … of
  columns 2048·(t mod 4) …. At the first column tile of a row tile the body zeroes the scratch column; at every point it
  adds, row by row, the sum over the block's columns of the block of `x` times the block of the column-sum row; at the
  last column tile it writes the scratch column scaled by 3/4 into the output block, which is written back there and
  nowhere else. So after point t the scratch column holds the sums over the column tiles 0 … t mod 4 of the current row
  tile (`acc`), and the output block at the last column tile is that column, scaled.

  This module states what the body leaves in its four buffers in each of the three situations (first, middle, last
  column tile), the running scratch contents point by point, the region's invariant (the scratch column at `acc`, the
  first pass's buffers and the generator register untouched), the proof data and the body obligation, for any entry
  contents `V` of the arrays and any float instance.
-/
import proofs.«132313_j73315091744103_2_alg».proof.Proof.Gen.KernelIdeal.Launch
import proofs.«132313_j73315091744103_2_alg».proof.Proof.Gen.KernelIdeal.Skeleton
import proofs.«132313_j73315091744103_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.MatVec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- "first column tile": the condition of the zeroing branch, as the body computes it from the grid coordinates. -/
abbrev isFirst (i : grid1.Coords) : Prop :=
  (Scalar.cmpi .ne (Scalar.extui (Scalar.cmpi .eq (BitVec.ofNat 32 (i 1).val) 0#32)) 0#32) = 1#1
/-- "last column tile": the condition of the write-out branch. -/
abbrev isLast (i : grid1.Coords) : Prop := k1_cond2 i = 1#1

theorem first_iff : ∀ t : Fin cfg1.N, isFirst (grid1.coords t) ↔ t.val % 4 = 0 :=
  (by decide +kernel : ∀ t : Fin grid1.N, isFirst (grid1.coords t) ↔ t.val % 4 = 0)
theorem last_iff : ∀ t : Fin cfg1.N, isLast (grid1.coords t) ↔ t.val % 4 = 3 :=
  (by decide +kernel : ∀ t : Fin grid1.N, isLast (grid1.coords t) ↔ t.val % 4 = 3)

/-- The two input windows are never idle; the output window is idle, and not written back, away from the last column
    tile. -/
theorem live_in0 : ∀ t : Fin cfg1.N, cfg1.idle 0 (grid1.coords t) = false := by decide +kernel
theorem live_in1 : ∀ t : Fin cfg1.N, cfg1.idle 1 (grid1.coords t) = false := by decide +kernel
theorem idle_out : ∀ t : Fin cfg1.N, ¬ isLast (grid1.coords t) → cfg1.idle 2 (grid1.coords t) = true := by decide +kernel
theorem noflush_out : ∀ t : Fin cfg1.N, ¬ isLast (grid1.coords t) → (cfg1.win 2).flush t = false := by decide +kernel
theorem live_out : ∀ t : Fin cfg1.N, isLast (grid1.coords t) → cfg1.idle 2 (grid1.coords t) = false := by decide +kernel

/-! ## The body on any whole staging memrefs, in its three situations -/

theorem zero2 : (![0, 0] : Fin 2 → ℕ) = fun _ => 0 := by funext a; fin_cases a <;> rfl

set_option maxHeartbeats 1000000 in
/-- First column tile (and not the last): the scratch column is zeroed, then the block's row sums of products are added;
    the output buffer is not touched. -/
theorem run_first (c : Dev nD) (E : Set ℕ) (i : grid1.Coords)
    (arg2 : Memref sig .tc .vmem S1024x2048 .f32) (harg2 : arg2.IsWhole)
    (arg3 : Memref sig .tc .vmem S1x2048 .f32) (harg3 : arg3.IsWhole)
    (arg4 : Memref sig .tc .vmem S1024x1 .f32) (harg4 : arg4.IsWhole)
    (arg5 : Memref sig .tc .vmem S1024x1 .f32) (harg5 : arg5.IsWhole)
    (hc0 : isFirst i) (hc1 : ¬ isLast i)
    (x0 : Vec F S1024x2048 .f32) (x1 : Vec F S1x2048 .f32) (d4 : Vec F S1024x1 .f32) (K : PUnit → sProp 𝕄) :
    iprop(owns (c : Thread nD τ) arg2 fullShare x0 ∗ owns (c : Thread nD τ) arg3 fullShare x1
        ∗ owns (c : Thread nD τ) arg4 fullShare d4
        ∗ (∃ d, owns (c : Thread nD τ) arg5 fullShare d)
        ∗ (iprop(owns (c : Thread nD τ) arg2 fullShare x0 ∗ owns (c : Thread nD τ) arg3 fullShare x1
            ∗ owns (c : Thread nD τ) arg4 fullShare d4
            ∗ owns (c : Thread nD τ) arg5 fullShare (k1_pay2 x0 x1 (k1_pay1 (F := F)))) -∗ K ⟨⟩))
      ⊢ wp frame (wpE (defs₀ (F := F)) Variants.none c none) E (cc1__matvec_kernel i arg2 harg2 arg3 harg3 arg4 harg4 arg5 harg5) K := by
  simp only [cc1__matvec_kernel_eq_skeleton]; unfold cc1__matvec_kernel_skel
  unfold owns
  iintro ⟨⟨%f0, %hf0, H0⟩, ⟨%f1, %hf1, H1⟩, ⟨%f2, %hf2, H2⟩, ⟨%ds, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_run_names
  rw [View.read_writes_eq_canon _ _ _ (fun y => ⟨_, List.mem_cons_self .., View.mem_set_unit_zero zero2 inb_S1024x1_S1024x1_0_0 y⟩),
    View.canon_cons_unit_zero zero2]
  rw [View.readCov_unit_zero (S := S1024x1) arg5.view zero2, View.readAt_eq_ld, View.readAt_eq_ld, harg2.read_unread,
    harg3.read_unread, View.ld_unit_zero (S := S1024x2048) zero2, View.ld_unit_zero (S := S1x2048) zero2]

set_option maxHeartbeats 1000000 in
/-- A middle column tile: the block's row sums of products are added to what the scratch column held; the output buffer
    is not touched. -/
theorem run_next (c : Dev nD) (E : Set ℕ) (i : grid1.Coords)
    (arg2 : Memref sig .tc .vmem S1024x2048 .f32) (harg2 : arg2.IsWhole)
    (arg3 : Memref sig .tc .vmem S1x2048 .f32) (harg3 : arg3.IsWhole)
    (arg4 : Memref sig .tc .vmem S1024x1 .f32) (harg4 : arg4.IsWhole)
    (arg5 : Memref sig .tc .vmem S1024x1 .f32) (harg5 : arg5.IsWhole)
    (hc0 : ¬ isFirst i) (hc1 : ¬ isLast i)
    (x0 : Vec F S1024x2048 .f32) (x1 : Vec F S1x2048 .f32) (d4 : Vec F S1024x1 .f32) (xs : Vec F S1024x1 .f32)
    (K : PUnit → sProp 𝕄) :
    iprop(owns (c : Thread nD τ) arg2 fullShare x0 ∗ owns (c : Thread nD τ) arg3 fullShare x1
        ∗ owns (c : Thread nD τ) arg4 fullShare d4
        ∗ owns (c : Thread nD τ) arg5 fullShare xs
        ∗ (iprop(owns (c : Thread nD τ) arg2 fullShare x0 ∗ owns (c : Thread nD τ) arg3 fullShare x1
            ∗ owns (c : Thread nD τ) arg4 fullShare d4
            ∗ owns (c : Thread nD τ) arg5 fullShare (k1_pay2 x0 x1 xs)) -∗ K ⟨⟩))
      ⊢ wp frame (wpE (defs₀ (F := F)) Variants.none c none) E (cc1__matvec_kernel i arg2 harg2 arg3 harg3 arg4 harg4 arg5 harg5) K := by
  simp only [cc1__matvec_kernel_eq_skeleton]; unfold cc1__matvec_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2
  obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_run_names
  rw [View.read_writes_eq_canon _ _ _ (fun y => ⟨_, List.mem_singleton_self _, View.mem_set_unit_zero zero2 inb_S1024x1_S1024x1_0_0 y⟩),
    View.canon_unit_zero zero2]
  rw [View.readAt_eq_ld, View.readAt_eq_ld, View.readAt_eq_ld, harg2.read_unread, harg3.read_unread, harg5.read_unread,
    View.ld_unit_zero (S := S1024x2048) zero2, View.ld_unit_zero (S := S1x2048) zero2,
    View.ld_unit_zero (S := S1024x1) zero2]

set_option maxHeartbeats 1000000 in
/-- The last column tile (and not the first): the block's row sums of products are added to the scratch column, and the
    scratch column, scaled, is written into the output buffer. -/
theorem run_last (c : Dev nD) (E : Set ℕ) (i : grid1.Coords)
    (arg2 : Memref sig .tc .vmem S1024x2048 .f32) (harg2 : arg2.IsWhole)
    (arg3 : Memref sig .tc .vmem S1x2048 .f32) (harg3 : arg3.IsWhole)
    (arg4 : Memref sig .tc .vmem S1024x1 .f32) (harg4 : arg4.IsWhole)
    (arg5 : Memref sig .tc .vmem S1024x1 .f32) (harg5 : arg5.IsWhole)
    (hc0 : ¬ isFirst i) (hc1 : isLast i)
    (x0 : Vec F S1024x2048 .f32) (x1 : Vec F S1x2048 .f32) (xs : Vec F S1024x1 .f32) (K : PUnit → sProp 𝕄) :
    iprop(owns (c : Thread nD τ) arg2 fullShare x0 ∗ owns (c : Thread nD τ) arg3 fullShare x1
        ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k1_pay3 (k1_pay2 x0 x1 xs))
            ∗ owns (c : Thread nD τ) arg5 fullShare (k1_pay2 x0 x1 xs)) -∗ K ⟨⟩))
      ⊢ wp frame (wpE (defs₀ (F := F)) Variants.none c none) E (cc1__matvec_kernel i arg2 harg2 arg3 harg3 arg4 harg4 arg5 harg5) K := by
  simp only [cc1__matvec_kernel_eq_skeleton]; unfold cc1__matvec_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (fun y => ⟨_, List.mem_singleton_self _, View.mem_set_unit_zero zero2 inb_S1024x1_S1024x1_0_0 y⟩),
      View.canon_unit_zero zero2]
    rw [View.readCov_unit_zero (S := S1024x1) arg5.view zero2]
    rw [View.readAt_eq_ld, View.readAt_eq_ld, View.readAt_eq_ld, harg2.read_unread, harg3.read_unread, harg5.read_unread,
      View.ld_unit_zero (S := S1024x2048) zero2, View.ld_unit_zero (S := S1x2048) zero2,
      View.ld_unit_zero (S := S1024x1) zero2]
  iexists _; isplitr
  swap; · iexact HS0
  ipureintro
  sl_unfold_run_names
  rw [View.read_writes_eq_canon _ _ _ (fun y => ⟨_, List.mem_singleton_self _, View.mem_set_unit_zero zero2 inb_S1024x1_S1024x1_0_0 y⟩),
    View.canon_unit_zero zero2]
  rw [View.readAt_eq_ld, View.readAt_eq_ld, View.readAt_eq_ld, harg2.read_unread, harg3.read_unread, harg5.read_unread,
    View.ld_unit_zero (S := S1024x2048) zero2, View.ld_unit_zero (S := S1x2048) zero2,
    View.ld_unit_zero (S := S1024x1) zero2]

/-! ## The blocks, the running scratch column, the invariant and the proof data, at entry contents `V` -/

section Data

variable (V : (c : Dev nD) → (b : Ref sig .tc) → Buf (Elt F) ((c : Thread nD τ).loc b))

/-- Window `w`'s block at point `t`, read off its array as the region finds it. -/
def blockIn (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input window's current staging buffer holds its block at every point, for any proof data over `V` whose
    body leaves the block in place. -/
theorem before_in0_of {c : Dev nD} (dat : Dat τ (Elt F) Unit ℕ (UR sig nD τ) ℕ cfg1 c) (hA : dat.A 0 = V c (Pipeline.arrRef spec1 0))
    (hafter : ∀ t, dat.after 0 t = blockIn V c 0 t) (t : Fin cfg1.N) (d) : dat.before 0 t d = blockIn V c 0 t :=
  (dat.before_in_eq_fetched 0 rfl (fun _ => rfl) (fun _ _ _ => rfl) (fun t => by rw [hafter]; unfold Dat.blockOf blockIn; rw [hA]; try rfl) t d).trans
    (by unfold Dat.fetched Dat.blockOf blockIn; rw [hA]; try rfl)

/-- The same for the second input window. -/
theorem before_in1_of {c : Dev nD} (dat : Dat τ (Elt F) Unit ℕ (UR sig nD τ) ℕ cfg1 c) (hA : dat.A 1 = V c (Pipeline.arrRef spec1 1))
    (hafter : ∀ t, dat.after 1 t = blockIn V c 1 t) (t : Fin cfg1.N) (d) : dat.before 1 t d = blockIn V c 1 t :=
  (dat.before_in_eq_fetched 1 rfl (fun _ => rfl) (fun _ _ _ => rfl) (fun t => by rw [hafter]; unfold Dat.blockOf blockIn; rw [hA]; try rfl) t d).trans
    (by unfold Dat.fetched Dat.blockOf blockIn; rw [hA]; try rfl)

/-- The scratch column after the body at position `n`: restarted from the zero column at each first column tile,
    otherwise what the point before left plus this point's row sums of products. -/
def acc (c : Dev nD) : (n : ℕ) → n < cfg1.N → Vec F S1024x1 .f32
  | 0, hn => k1_pay2 (blockIn V c 0 ⟨0, hn⟩) (blockIn V c 1 ⟨0, hn⟩) (k1_pay1 (F := F))
  | n + 1, hn =>
    if (n + 1) % 4 = 0 then k1_pay2 (blockIn V c 0 ⟨n + 1, hn⟩) (blockIn V c 1 ⟨n + 1, hn⟩) (k1_pay1 (F := F))
    else k1_pay2 (blockIn V c 0 ⟨n + 1, hn⟩) (blockIn V c 1 ⟨n + 1, hn⟩) (acc c n (Nat.lt_of_succ_lt hn))

theorem acc_first (c : Dev nD) (t : Fin cfg1.N) (h : t.val % 4 = 0) :
    acc V c t.val t.isLt = k1_pay2 (blockIn V c 0 t) (blockIn V c 1 t) (k1_pay1 (F := F)) := by
  obtain ⟨n, hn⟩ := t
  cases n with
  | zero => rfl
  | succ n => exact if_pos h

theorem acc_next (c : Dev nD) (t : Fin cfg1.N) (h : ¬ t.val % 4 = 0) :
    acc V c t.val t.isLt
      = k1_pay2 (blockIn V c 0 t) (blockIn V c 1 t) (acc V c (t.val - 1) (Nat.lt_of_le_of_lt (Nat.sub_le _ _) t.isLt)) := by
  obtain ⟨n, hn⟩ := t
  cases n with
  | zero => exact absurd (Nat.zero_mod _) h
  | succ n => exact (if_neg h).trans rfl

/-- The scratch column as a memref. -/
abbrev scM : Memref sig .tc .vmem S1024x1 .f32 := Memref.whole cc1_scratch0
/-- Each window's current staging memref at point `t`. -/
abbrev ms0 (t : Fin cfg1.N) : Memref sig .tc .vmem S1024x2048 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x2048 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .f32 := win1_2.stage (cfg1.slots t 2)
abbrev hs2 (t : Fin cfg1.N) : (ms2 t).IsWhole := hstage1_2 ((cfg1.slots t 2).cast nbuf1_2)

/-- What the launch hands a region of this pass: the first pass's staging buffers and scratch row, each whole at some
    contents, the scratch column at anything, the generator register. -/
theorem PhiA_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ d, owns (c : Thread nD τ) scM fullShare d)) ∗ (∃ r, prngReg c r)) := by
  unfold Pipeline.ΦA; rw [scopedRest1_eq]; simp only [scM, owns_whole]; rfl

/-- The region's invariant before position `n`: at the start what the launch hands over; afterwards the same with the
    scratch column at what the point before left. -/
def PhiS (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM fullShare (acc V c n hn)) ∗ (∃ r, prngReg c r))

theorem PhiS_succ (c : Dev nD) (n : ℕ) (hn : n < cfg1.N) :
    PhiS V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM fullShare (acc V c n hn)) ∗ (∃ r, prngReg c r)) := rfl

theorem PhiS_pos (c : Dev nD) (n : ℕ) (h : n ≤ cfg1.N) (hz : n ≠ 0) :
    PhiS V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM fullShare (acc V c (n - 1) (by omega))) ∗ (∃ r, prngReg c r)) := by
  cases n with
  | zero => exact absurd rfl hz
  | succ n => rfl

/-- At any position the invariant gives the launch's form back: the scratch column's named contents are forgotten. -/
theorem PhiS_any (c : Dev nD) (n : ℕ) (h : n ≤ cfg1.N) :
    PhiS V c n h ⊢ iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ d, owns (c : Thread nD τ) scM fullShare d)) ∗ (∃ r, prngReg c r)) := by
  cases n with
  | zero => rw [show PhiS V c 0 h = Pipeline.ΦA spec1 c from rfl, PhiA_eq]
  | succ n =>
    rw [PhiS_succ]
    iintro ⟨⟨Ha, Hb, Hc, Hd, He, HS⟩, Hg⟩
    isplitl [Ha Hb Hc Hd He HS]
    · isplitl [Ha]; · iexact Ha
      isplitl [Hb]; · iexact Hb
      isplitl [Hc]; · iexact Hc
      isplitl [Hd]; · iexact Hd
      isplitl [He]; · iexact He
      iexists _; iexact HS
    iexact Hg

/-- The proof data of the second pass on core `c`: the arrays as the region finds them; after the body at point `t` each
    input's buffer at its block and the output's at the scratch column's contents, scaled; the invariant `PhiS`; nothing
    owed; full shares. -/
def dat (c : Dev nD) : Dat τ (Elt F) Unit ℕ (UR sig nD τ) ℕ cfg1 c where
  A w := V c (Pipeline.arrRef spec1 w)
  after w t := match w with
    | ⟨0, _⟩ => blockIn V c 0 t
    | ⟨1, _⟩ => blockIn V c 1 t
    | ⟨2, _⟩ => k1_pay3 (acc V c t.val t.isLt)
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_in0 (c : Dev nD) (t : Fin cfg1.N) : (dat V c).after 0 t = blockIn V c 0 t := by dsimp only [dat]
theorem after_in1 (c : Dev nD) (t : Fin cfg1.N) : (dat V c).after 1 t = blockIn V c 1 t := by dsimp only [dat]
theorem after_out (c : Dev nD) (t : Fin cfg1.N) : (dat V c).after 2 t = k1_pay3 (acc V c t.val t.isLt) := by dsimp only [dat]

theorem before_in0 (c : Dev nD) (t : Fin cfg1.N) (d) : (dat V c).before 0 t d = blockIn V c 0 t :=
  before_in0_of V (dat V c) (A_eq V c 0) (after_in0 V c) t d
theorem before_in1 (c : Dev nD) (t : Fin cfg1.N) (d) : (dat V c).before 1 t d = blockIn V c 1 t :=
  before_in1_of V (dat V c) (A_eq V c 1) (after_in1 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the two inputs' memrefs hold their blocks; the point's position in its row tile says which of
    the three situations applies; the invariant hands the body the scratch column at what the point before left (at
    anything at a first column tile) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1]
  rw [show (dat V c).owesAt () t.succ = (dat V c).owesAt () t.castSucc from rfl]
  rw [show (dat V c).Φ t.succ = PhiS V c (t.val + 1) t.isLt from rfl, PhiS_succ]
  have hN : t.val < 8 := lt_of_lt_of_eq t.isLt (show cfg1.N = 8 from N_1)
  rw [show (dat V c).leavesExact 0 t = owns (c : Thread nD τ) (ms0 t) fullShare ((dat V c).after 0 t) from by
    unfold Dat.leavesExact; rw [live_in0 t], after_in0]
  rw [show (dat V c).leavesExact 1 t = owns (c : Thread nD τ) (ms1 t) fullShare ((dat V c).after 1 t) from by
    unfold Dat.leavesExact; rw [live_in1 t], after_in1]
  rw [PhiS_castSucc V c t]
  by_cases h0 : t.val % 4 = 0
  · have h1 : ¬ t.val % 4 = 3 := by omega
    rw [Dat.leavesExact_idle (dat V c) 2 t (idle_out t (fun h => h1 ((last_iff t).mp h))) (noflush_out t (fun h => h1 ((last_iff t).mp h)))]
    rw [acc_first V c t h0]
    have hany := PhiS_any V c t.val (Nat.le_of_lt t.isLt)
    iintro ⟨HP, Ho, ⟨%d0, H0⟩, ⟨%d1, H1⟩, ⟨%d2, H2⟩⟩
    ihave HP' := hany $$ HP
    icases HP' with ⟨⟨Ha, Hb, Hc, Hd, He, HS⟩, Hg⟩
    iapply (run_first c Set.univ (grid1.coords t) _ _ _ _ _ _ _ _ ((first_iff t).mpr h0) (fun h => h1 ((last_iff t).mp h)) (blockIn V c 0 t) (blockIn V c 1 t) _ _)
    isplitl [H0]; · iexact H0
    isplitl [H1]; · iexact H1
    isplitl [H2]; · iexact H2
    isplitl [HS]; · iexact HS
    iintro ⟨H0, H1, H2, HS⟩
    isplitl [Ha Hb Hc Hd He HS Hg]
    · isplitl [Ha Hb Hc Hd He HS]
      · isplitl [Ha]; · iexact Ha
        isplitl [Hb]; · iexact Hb
        isplitl [Hc]; · iexact Hc
        isplitl [Hd]; · iexact Hd
        isplitl [He]; · iexact He
        iexact HS
      iexact Hg
    isplitl [Ho]; · iexact Ho
    isplitl [H0]; · iexact H0
    isplitl [H1]; · iexact H1
    iexists _; iexact H2
  · have hz : t.val ≠ 0 := by intro h; rw [h] at h0; exact h0 (Nat.zero_mod _)
    rw [PhiS_pos V c _ _ hz, acc_next V c t h0]
    by_cases h1 : t.val % 4 = 3
    · rw [show (dat V c).leavesExact 2 t = owns (c : Thread nD τ) (ms2 t) fullShare ((dat V c).after 2 t) from by
        unfold Dat.leavesExact; rw [live_out t ((last_iff t).mpr h1)], after_out, acc_next V c t h0]
      iintro ⟨⟨⟨Ha, Hb, Hc, Hd, He, HS⟩, Hg⟩, Ho, ⟨%d0, H0⟩, ⟨%d1, H1⟩, ⟨%d2, H2⟩⟩
      iapply (run_last c Set.univ (grid1.coords t) _ _ _ _ _ _ _ _ (fun h => h0 ((first_iff t).mp h)) ((last_iff t).mpr h1) (blockIn V c 0 t) (blockIn V c 1 t) _ _)
      isplitl [H0]; · iexact H0
      isplitl [H1]; · iexact H1
      isplitl [H2]; · iexists _; iexact H2
      isplitl [HS]; · iexact HS
      iintro ⟨H0, H1, H2, HS⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexact H2
    · rw [Dat.leavesExact_idle (dat V c) 2 t (idle_out t (fun h => h1 ((last_iff t).mp h))) (noflush_out t (fun h => h1 ((last_iff t).mp h)))]
      iintro ⟨⟨⟨Ha, Hb, Hc, Hd, He, HS⟩, Hg⟩, Ho, ⟨%d0, H0⟩, ⟨%d1, H1⟩, ⟨%d2, H2⟩⟩
      iapply (run_next c Set.univ (grid1.coords t) _ _ _ _ _ _ _ _ (fun h => h0 ((first_iff t).mp h)) (fun h => h1 ((last_iff t).mp h)) (blockIn V c 0 t) (blockIn V c 1 t) _ _ _)
      isplitl [H0]; · iexact H0
      isplitl [H1]; · iexact H1
      isplitl [H2]; · iexact H2
      isplitl [HS]; · iexact HS
      iintro ⟨H0, H1, H2, HS⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl]
  exact BI.Entails.refl _

/-- After the last point the invariant gives the launch's form back. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl, PhiA_eq]
  exact PhiS_any V c _ _

end Data

end Cert.KernelIdeal.MatVec

end
-- ==== Proof.KiRun.lean ====
/-
  The run of the whole program: the two passes as the two kernel regions of @main, one after the other.

  Between the regions a core's unscoped buffers are named: at launch the memory `m`; after the first pass the same with
  the column-sum row at what that pass's write-backs leave; after the second pass the same again with the result column
  at what the second pass's write-backs leave. Each region is entered from "every unscoped buffer at the boundary's
  contents, the generator register at some state, nothing owed" and left at the next boundary's; its arrays are split
  out of the unscoped buffers on entry and put back on exit, and its invariant starts from and returns to the scoped
  buffers at anything. Every weakly fair execution of @main then terminates with every unscoped buffer at the last
  boundary's contents — from which the argument arrays are read back unchanged and the result column is read as the
  second pass's final array.
-/
import proofs.«132313_j73315091744103_2_alg».proof.Proof.KiColSum
import proofs.«132313_j73315091744103_2_alg».proof.Proof.KiMatVec

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the three boundaries -/

/-- Core `c`'s buffers at launch. -/
abbrev W0 : Dev nD → Valuation τ sig (Elt F) := fun c b => (s₀ m ρ).mem ((c : Dev nD), b)
/-- The same read at the TensorCore's references (what the first pass's proof data take). -/
abbrev V0 : (c : Dev nD) → (b : Ref sig .tc) → Buf (Elt F) ((c : Thread nD τ).loc b) := fun c b => W0 m ρ c b

/-- After the first pass: its arrays at what the pipeline leaves, every other buffer as launched. -/
def W1 (c : Dev nD) : Valuation τ sig (Elt F) :=
  Pipeline.withArrays spec0 c (W0 m ρ c) fun w => (ColSum.dat (V0 m ρ) c).arrAt w cfg0.N
theorem W1_arr (c : Dev nD) (w : Fin cfg0.W) :
    W1 m ρ c (Proc.devRef .tc (Pipeline.arrRef spec0 w)) = (ColSum.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (ColSum.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second pass: its arrays at what the pipeline leaves, every other buffer as the first pass left it. -/
def W2 (c : Dev nD) : Valuation τ sig (Elt F) :=
  Pipeline.withArrays spec1 c (W1 m ρ c) fun w => (MatVec.dat (V1 m ρ) c).arrAt w cfg1.N
theorem W2_arr (c : Dev nD) (w : Fin cfg1.W) :
    W2 m ρ c (Proc.devRef .tc (Pipeline.arrRef spec1 w)) = (MatVec.dat (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (MatVec.dat (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched, and the result column is the second pass's final array -/

/-- `x` is an input of the second pass and no array of the first. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((MatVec.dat (V1 m ρ) c).arrAt_in 0 rfl _).trans (MatVec.A_eq (V1 m ρ) c 0))
    _ = W0 m ρ c (Proc.devRef .tc main_arg0) := W1_of_ne m ρ c main_arg0 (by decide)
    _ = m ((c : Thread nD τ).loc main_arg0) := rfl
/-- `W` is the input of the first pass and no array of the second. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 0).trans (((ColSum.dat (V0 m ρ) c).arrAt_in 0 rfl _).trans (ColSum.A_eq (V0 m ρ) c 0))
    _ = m ((c : Thread nD τ).loc main_arg1) := rfl
/-- The result column at the end is the second pass's output array after all its write-backs. -/
theorem W2_main_v1 (c : Dev nD) : W2 m ρ c (Proc.devRef .tc main_v1) = (MatVec.dat (V1 m ρ) c).arrAt 2 cfg1.N :=
  W2_arr m ρ c 2
/-- The column-sum row the second pass reads is the first pass's output array after all its write-backs. -/
theorem V1_main_v0 (c : Dev nD) : V1 m ρ c main_v0 = (ColSum.dat (V0 m ρ) c).arrAt 1 cfg0.N :=
  W1_arr m ρ c 1
/-- `x` as the second pass finds it is `x` as launched. -/
theorem V1_main_arg0 (c : Dev nD) : V1 m ρ c main_arg0 = m ((c : Thread nD τ).loc main_arg0) :=
  W1_of_ne m ρ c main_arg0 (by decide)

/-! ## The proof data family and the thread state -/

/-- No pipeline has a prefetched table. -/
abbrev admK : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admK p) c
  | ⟨0, _⟩ => fun c => ColSum.dat (V0 m ρ) c
  | ⟨1, _⟩ => fun c => MatVec.dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- The first pass over the thread state: entered from every unscoped buffer at `W0`, left at `W1`. -/
def reg0 : Pipeline.RegionSeg (pcfgs (F := F)) admK (pdats m ρ) () defs₀ 𝒱₀ L lv 0 where
  win := launch0.win.to₀
  block_pos := launch0.block_pos
  stage_whole := launch0.stage_whole
  K := PEmpty
  osem k := k.elim
  ho := Pipeline.OwnSemFacts.none _
  hbody c := (ColSum.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) admK (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (ColSum.hout (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pass over the thread state: entered from every unscoped buffer at `W1`, left at `W2`. -/
def reg1 : Pipeline.RegionSeg (pcfgs (F := F)) admK (pdats m ρ) () defs₀ 𝒱₀ L lv 1 where
  win := launch1.win.to₀
  block_pos := launch1.block_pos
  stage_whole := launch1.stage_whole
  K := PEmpty
  osem k := k.elim
  ho := Pipeline.OwnSemFacts.none _
  hbody c := (MatVec.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) admK (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (MatVec.hout (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two segments, and the launch -/

abbrev segs : List (Pipeline.Seg (pcfgs (F := F)) admK (pdats m ρ) () defs₀ 𝒱₀ L lv) :=
  [ .region (reg0 m ρ), .region (reg1 m ρ) ]
theorem main_run (c : Dev nD) : main (F := F) c = Pipeline.Seg.run (segs m ρ) :=
  main_segs admK (pdats m ρ) () 𝒱₀ L lv (reg0 m ρ) (reg1 m ρ) c

set_option backward.isDefEq.respectTransparency.types false in
/-- THE RUN: from any memory with zero counters every weakly fair execution of @main terminates, nothing faulting, and
    every final state has every unscoped buffer at the last boundary's contents `W2`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W2 m ρ c b) :=
  Pipeline.θ_run_regions_kit (pcfgs (F := F)) admK (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W2_main_arg0 m ρ c),
     (h c _ (mem_uc main_arg1 (by decide))).trans (W2_main_arg1 m ρ c)⟩) (run_main m ρ)

/-- The run with the result column named: it ends at the second pass's output array after all its write-backs, the
    arguments as launched. -/
theorem run_value : θ_run defs (onTc (τ := τ) (main (F := F))) ⟨m, fun _ => 0, ρ⟩ (fun r => ∀ c : Dev nD,
      r.2.mem ((c.tc : Thread nD τ).loc main_v1) = (MatVec.dat (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c)⟩) (run_main m ρ)

end Cert.KernelIdeal.Run

end
-- ==== Proof.LibColumnSum.lean ====
/-
  A column sum of a matrix, read at coordinates.

  A `vector.multi_reduction <add>` of an `[a, b]` matrix over its FIRST axis, read on the extended reals at column `j`, is
  the sum of the column's entries `(k, j)` — the companion, for the first axis, of the row sum over the second. Stated
  twice: for any accumulator word that is the sum's neutral word, and for the zero word `0x00000000` of f32 with the
  hypothesis typed `0x00000000 = 0x00000000`, the form in which a printed kernel body carries it.
-/
import Idealize.ShloMosaic.PureOps.Ideal.Laws
import Idealize.ShloMosaic.Lib.ValueIdx

noncomputable section

namespace Idealize.ShloMosaic.ValueKeepdims

open Idealize.ShloMosaic Idealize.ShloMosaic.ValueIdx

/-- Column `j` with row `k` put back on the reduced first axis is `(k, j)`. -/
theorem lift_axis0_ix2 {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A `vector.multi_reduction <add>` of an `[a, b]` matrix over its FIRST axis, at column `j`: the column's sum. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_axis0_ix2 h j k)

/-- A column sum with the zero word as the printed accumulator. -/
theorem colSum_at {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (j : Fin b) :
    multiReduction .add [0] ⟨1, ![b]⟩ src 0x00000000#32 h hφ hacc (ix1 j) = ∑ k : Fin a, src (ix2 k j) :=
  multiReduction_add_col src 0x00000000#32 h hφ hacc j

end Idealize.ShloMosaic.ValueKeepdims

end
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.Spec.lean ====
/-
  The function both programs compute, stated once on the extended reals and over literal shapes.

  For `x : [2048, 8192]` and `W : [8192, 8192]`, row `p` of the result `[2048, 1]` is

      ( ∑ᵢ x(p,i) · ( ∑ₕ W(h,i) ) ) · 3/4 ,

  the inner sum being column `i` of `W` summed over all its rows, and 3/4 the exact value of the f32 word 0x3F400000.
  This is the arrangement in which the two-pass kernel produces it: first every column sum of `W`, then each row of `x`
  against the vector of column sums, the scale applied last. Sums on the extended reals are sums in a commutative
  monoid, so regrouping them into blocks needs no finiteness; only the comparison with the product-then-sum arrangement
  (distributing x(p,i) over the column sum) does.
-/
import Idealize.ShloMosaic.PureOps.Ideal
import Idealize.ShloMosaic.Lib.ValueIdx

noncomputable section

namespace Cert.Spec

open Idealize.ShloMosaic Idealize.ShloMosaic.ValueIdx

/-- Column `i` of `W` summed over all 8192 rows. -/
def colsum (W : (⟨2, ![8192, 8192]⟩ : Shape).Idx → EReal) (i : Fin 8192) : EReal :=
  ∑ h : Fin 8192, W (ix2 h i)

/-- The scale 3/4 as the f32 word the kernel multiplies by. -/
def scale : EReal := Ideal.ofBits .f32 0x3F400000#32

/-- Row `p` of the result: the row of `x` against the column sums of `W`, scaled. -/
def rowOut (x : (⟨2, ![2048, 8192]⟩ : Shape).Idx → EReal) (W : (⟨2, ![8192, 8192]⟩ : Shape).Idx → EReal)
    (p : Fin 2048) : EReal :=
  (∑ i : Fin 8192, x (ix2 p i) * colsum W i) * scale

/-- The whole result `[2048, 1]`, index by index. -/
def out (x : (⟨2, ![2048, 8192]⟩ : Shape).Idx → EReal) (W : (⟨2, ![8192, 8192]⟩ : Shape).Idx → EReal) :
    (⟨2, ![2048, 1]⟩ : Shape).Idx → EReal :=
  fun b => rowOut x W (b 0)

theorem out_apply (x : (⟨2, ![2048, 8192]⟩ : Shape).Idx → EReal) (W : (⟨2, ![8192, 8192]⟩ : Shape).Idx → EReal)
    (p : Fin 2048) (q : Fin 1) : out x W (ix2 p q) = rowOut x W p := rfl

end Cert.Spec

end
-- ==== Proof.KiColSumValue.lean ====
/-
  What the first pass leaves in the column-sum row, on the extended reals.

  At an index the body's arithmetic is: the zero row is 0; the accumulating payload at column `j` is the scratch row's
  entry plus the sum of the block's column `j` (a sum over the 512 rows of the block; the reduction starts from the zero
  word, which is the sum's neutral element). Block `t` of the weight matrix is rows 512·(t mod 16) … and columns
  4096·(t div 16) …. So by induction on the point, after point `t` the scratch row at column `j` is the sum, over the
  row tiles 0 … t mod 16 and the 512 rows of each, of the matrix entries in column 4096·(t div 16) + j; at the last row
  tile this is the whole column's sum (8192 = 16 · 512 consecutive rows taken block by block — a regrouping of a sum in a
  commutative monoid, no finiteness needed). The output block written back there is that row, the blocks written back
  (one per column tile) cover the row `[1, 8192]`, and so the array ends holding every column's sum.
-/
import proofs.«132313_j73315091744103_2_alg».proof.Proof.KiColSum
import proofs.«132313_j73315091744103_2_alg».proof.Proof.LibColumnSum
import proofs.«132313_j73315091744103_2_alg».proof.Proof.LibBlockSum
import proofs.«132313_j73315091744103_2_alg».proof.Proof.Spec
import Idealize.ShloMosaic.Lib.ValueLayout
import Idealize.ShloMosaic.Lib.Pipeline.Value

noncomputable section

namespace Cert.KernelIdeal.ColSumValue

open Cert.KernelIdeal Cert.KernelIdeal.Gen Cert.KernelIdeal.ColSum
open Idealize.ShloMosaic Idealize.ShloMosaic.TcCoe Idealize.SL.Sem
open Idealize.ShloMosaic.ValueIdx Idealize.ShloMosaic.ValueKeepdims
open Idealize.ShloMosaic.Pipeline (Dat)

/-! ## The payloads at an index -/

/-- The zero row is 0 everywhere. -/
theorem zeros_apply (j : Fin 4096) : (k0_pay1 (F := Ideal)) (ix2 (0 : Fin 1) j) = 0 := by
  unfold k0_pay1
  rw [shapeCast_self]
  exact Ideal.ofBits_zero_f32

/-- The accumulating payload at column `j`: the scratch row's entry plus the block's column sum. -/
theorem step_apply (xs : Vec Ideal S1x4096 .f32) (x0 : Vec Ideal S512x4096 .f32) (j : Fin 4096) :
    k0_pay2 xs x0 (ix2 (0 : Fin 1) j) = xs (ix2 (0 : Fin 1) j) + ∑ r : Fin 512, x0 (ix2 r j) := by
  unfold k0_pay2
  rw [shapeCast_self]
  refine (addf_apply _ _ _).trans ?_
  refine congrArg (xs (ix2 (0 : Fin 1) j) + ·) ?_
  refine (shapeCast_a_1a_apply _ _ 0 j).trans ?_
  exact colSum_at x0 _ _ _ j

/-! ## The blocks of the weight matrix -/

/-- An entry of a square matrix by natural-number coordinates, 0 outside it (so that sums over ranges need no bounds). -/
def ent (W : S8192x8192.Idx → EReal) (a b : ℕ) : EReal :=
  if h : a < 8192 ∧ b < 8192 then W (ix2 ⟨a, h.1⟩ ⟨b, h.2⟩) else 0

/-- The printed index maps over the grid: the input block's row tile is t mod 16 and its column tile t div 16; the output
    block's column tile is t div 16. -/
theorem idx_in : ∀ t : Fin cfg0.N, win0_0.index t (0 : Fin 2) = t.val % 16 ∧ win0_0.index t (1 : Fin 2) = t.val / 16 :=
  (by decide +kernel : ∀ t : Fin grid0.N, win0_0.index t (0 : Fin 2) = t.val % 16 ∧ win0_0.index t (1 : Fin 2) = t.val / 16)
theorem idx_out : ∀ t : Fin cfg0.N, win0_1.index t (0 : Fin 2) = 0 ∧ win0_1.index t (1 : Fin 2) = t.val / 16 :=
  (by decide +kernel : ∀ t : Fin grid0.N, win0_1.index t (0 : Fin 2) = 0 ∧ win0_1.index t (1 : Fin 2) = t.val / 16)

section Data

variable (V : (c : Dev nD) → (b : Ref sig .tc) → Buf (Elt Ideal) ((c : Thread nD τ).loc b))

/-- Block `t` at `(r, j)` is the matrix at row 512·(t mod 16) + r, column 4096·(t div 16) + j. -/
theorem block_apply (c : Dev nD) (t : Fin cfg0.N) (r : Fin 512) (j : Fin 4096) (k : S8192x8192.Idx)
    (hk0 : (k 0).val = 512 * (t.val % 16) + r.val) (hk1 : (k 1).val = 4096 * (t.val / 16) + j.val) :
    (blockIn V c 0 t : Vec Ideal S512x4096 .f32) (ix2 r j) = (V c main_arg1 : S8192x8192.Idx → EReal) k := by
  obtain ⟨e0, e1⟩ := idx_in t
  unfold blockIn
  rw [View.read_apply]
  show V c main_arg1 _ = V c main_arg1 _
  refine congrArg (V c main_arg1) ?_
  funext a
  apply Fin.ext
  match a with
  | ⟨0, _⟩ => show win0_0.index t 0 * 512 + 1 * r.val = (k 0).val; rw [e0, hk0]; omega
  | ⟨1, _⟩ => show win0_0.index t 1 * 4096 + 1 * j.val = (k 1).val; rw [e1, hk1]; omega

theorem block_ent (c : Dev nD) (t : Fin cfg0.N) (r : Fin 512) (j : Fin 4096) :
    (blockIn V c 0 t : Vec Ideal S512x4096 .f32) (ix2 r j)
      = ent (V c main_arg1) (512 * (t.val % 16) + r.val) (4096 * (t.val / 16) + j.val) := by
  have hN : t.val < 32 := lt_of_lt_of_eq t.isLt N_0
  have hb : 512 * (t.val % 16) + r.val < 8192 ∧ 4096 * (t.val / 16) + j.val < 8192 := ⟨by omega, by omega⟩
  unfold ent; rw [dif_pos hb]
  exact block_apply V c t r j _ rfl rfl

/-! ## The running sum -/

theorem acc_restart (c : Dev nD) (n : ℕ) (hn : n < cfg0.N) (h : n % 16 = 0) :
    acc V c n hn = k0_pay2 (k0_pay1 (F := Ideal)) (blockIn V c 0 ⟨n, hn⟩) := acc_first V c ⟨n, hn⟩ h
theorem acc_succ (c : Dev nD) (n : ℕ) (hn : n + 1 < cfg0.N) (h : ¬ (n + 1) % 16 = 0) :
    acc V c (n + 1) hn = k0_pay2 (acc V c n (Nat.lt_of_succ_lt hn)) (blockIn V c 0 ⟨n + 1, hn⟩) := if_neg h

/-- After point `n` the scratch row at column `j` is the sum over the row tiles 0 … n mod 16 of the current column tile. -/
theorem acc_apply (c : Dev nD) : ∀ (n : ℕ) (hn : n < cfg0.N) (j : Fin 4096),
    acc V c n hn (ix2 (0 : Fin 1) j)
      = ∑ h' ∈ Finset.range (n % 16 + 1), ∑ r : Fin 512, ent (V c main_arg1) (512 * h' + r.val) (4096 * (n / 16) + j.val) := by
  intro n
  induction n with
  | zero =>
    intro hn j
    rw [acc_restart V c 0 hn rfl, step_apply, zeros_apply, zero_add]
    show _ = ∑ h' ∈ Finset.range 1, _
    rw [Finset.sum_range_one]
    exact Finset.sum_congr rfl fun r _ => block_ent V c ⟨0, hn⟩ r j
  | succ n ih =>
    intro hn j
    by_cases h0 : (n + 1) % 16 = 0
    · rw [acc_restart V c (n + 1) hn h0, step_apply, zeros_apply, zero_add, h0]
      show _ = ∑ h' ∈ Finset.range 1, _
      rw [Finset.sum_range_one]
      refine Finset.sum_congr rfl fun r _ => ?_
      refine (block_ent V c ⟨n + 1, hn⟩ r j).trans ?_
      show ent _ (512 * ((n + 1) % 16) + r.val) _ = _
      rw [h0]
    · rw [acc_succ V c n hn h0, step_apply, ih (Nat.lt_of_succ_lt hn) j]
      have e1 : (n + 1) % 16 = n % 16 + 1 := by omega
      have e2 : (n + 1) / 16 = n / 16 := by omega
      rw [e1, Finset.sum_range_succ _ (n % 16 + 1), e2]
      refine congrArg (_ + ·) ?_
      refine Finset.sum_congr rfl fun r _ => ?_
      refine (block_ent V c ⟨n + 1, hn⟩ r j).trans ?_
      show ent _ (512 * ((n + 1) % 16) + r.val) (4096 * ((n + 1) / 16) + j.val) = _
      rw [e1, e2]

/-- A whole column's sum, taken as 16 blocks of 512 consecutive rows. -/
theorem colsum_blocks (W : S8192x8192.Idx → EReal) (i : Fin 8192) :
    Cert.Spec.colsum W i = ∑ h' ∈ Finset.range 16, ∑ r : Fin 512, ent W (512 * h' + r.val) i.val := by
  unfold Cert.Spec.colsum
  rw [Cert.Lib.BlockSum.sum_blocks 16 512 (fun h : Fin (16 * 512) => W (ix2 (⟨h.val, h.isLt⟩ : Fin 8192) i)), Finset.sum_range]
  refine Finset.sum_congr rfl fun s _ => Finset.sum_congr rfl fun r _ => ?_
  have hs : s.val < 16 := s.isLt
  have hr : r.val < 512 := r.isLt
  unfold ent
  rw [dif_pos ⟨by omega, i.isLt⟩]
  refine congrArg W ?_
  funext a
  apply Fin.ext
  match a with
  | ⟨0, _⟩ => show s.val * 512 + r.val = 512 * s.val + r.val; omega
  | ⟨1, _⟩ => rfl

/-- At a last row tile the scratch row holds the whole column sums of its column tile. -/
theorem acc_last (c : Dev nD) (t : Fin cfg0.N) (hl : t.val % 16 = 15) (y : S1x4096.Idx) :
    acc V c t.val t.isLt y
      = Cert.Spec.colsum (V c main_arg1) ⟨4096 * (t.val / 16) + (y 1).val, by
          have := idx2_lt1 y; have := lt_of_lt_of_eq t.isLt N_0; omega⟩ := by
  obtain ⟨u, j, rfl⟩ : ∃ (u : Fin 1) (j : Fin 4096), y = ix2 u j := ⟨y 0, y 1, eq_ix2 y⟩
  obtain rfl : u = 0 := Subsingleton.elim _ _
  rw [acc_apply V c t.val t.isLt j, colsum_blocks, hl]

/-! ## The write-backs and the final array -/

/-- The column-sum row: entry `(0, i)` is column `i`'s sum. -/
def G (c : Dev nD) : S1x8192.Idx → EReal := fun i => Cert.Spec.colsum (V c main_arg1) ⟨(i 1).val, idx2_lt1 i⟩

/-- What a last row tile writes back is its block of the column-sum row. -/
theorem flushed_eq (c : Dev nD) (t : Fin cfg0.N) (hf : (cfg0.win 1).flush t = true) :
    (dat V c).flushed 1 t = ((cfg0.win 1).blk t).view.read (Elt Ideal) (G V c) := by
  have hl : t.val % 16 = 15 := (flush0_1 t).mp hf
  obtain ⟨e0, e1⟩ := idx_out t
  show (cfg0.win 1).cut (grid0.coords t) ((dat V c).after 1 t) = _
  rw [after_out]
  funext y
  show acc V c t.val t.isLt y = G V c (((cfg0.win 1).blk t).view.emb y)
  refine (acc_last V c t hl y).trans ?_
  unfold G
  refine congrArg (Cert.Spec.colsum (V c main_arg1)) (Fin.ext ?_)
  show 4096 * (t.val / 16) + (y 1).val = win0_1.index t 1 * 4096 + 1 * (y 1).val
  rw [e1]; omega

theorem mem_blk (t : Fin cfg0.N) (i : S1x8192.Idx) :
    i ∈ ((cfg0.win 1).blk t).view.set ↔ ∀ a : Fin 2, win0_1.index t a * S1x4096.size a ≤ (i a).val ∧ (i a).val < win0_1.index t a * S1x4096.size a + S1x4096.size a := by
  show i ∈ ((View.whole main_v0).slice (win0_1.rect t)).set ↔ _
  rw [View.set_slice_whole, Rect.mem_set_unit]
  exact Iff.rfl

/-- THE FIRST PASS'S RESULT: the row ends holding every column's sum. -/
theorem final (c : Dev nD) : (dat V c).arrAt 1 cfg0.N = G V c :=
  (dat V c).arrAt_eq_of_cover 1 (G V c) (flushed_eq V c) fun i => by
    have h1 : (i 1).val < 8192 := idx2_lt1 i
    have h0 : (i 0).val < 1 := idx2_lt0 i
    have ht : 16 * ((i 1).val / 4096) + 15 < cfg0.N := by rw [show cfg0.N = 32 from N_0]; omega
    refine ⟨⟨16 * ((i 1).val / 4096) + 15, ht⟩, (flush0_1 _).mpr (by show (16 * ((i 1).val / 4096) + 15) % 16 = 15; omega), ?_⟩
    rw [mem_blk]
    obtain ⟨e0, e1⟩ := idx_out ⟨16 * ((i 1).val / 4096) + 15, ht⟩
    intro a
    match a with
    | ⟨0, _⟩ =>
      show win0_1.index ⟨16 * ((i 1).val / 4096) + 15, ht⟩ 0 * 1 ≤ (i 0).val ∧ (i 0).val < win0_1.index ⟨16 * ((i 1).val / 4096) + 15, ht⟩ 0 * 1 + 1
      rw [e0]; omega
    | ⟨1, _⟩ =>
      show win0_1.index ⟨16 * ((i 1).val / 4096) + 15, ht⟩ 1 * 4096 ≤ (i 1).val ∧ (i 1).val < win0_1.index ⟨16 * ((i 1).val / 4096) + 15, ht⟩ 1 * 4096 + 4096
      rw [e1]
      show (16 * ((i 1).val / 4096) + 15) / 16 * 4096 ≤ (i 1).val ∧ (i 1).val < (16 * ((i 1).val / 4096) + 15) / 16 * 4096 + 4096
      omega

end Data

end Cert.KernelIdeal.ColSumValue

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.KiMatVecValue.lean ====
/-
  What the second pass leaves in the result column, on the extended reals.

  At an index the body's arithmetic is: the zero column is 0; the accumulating payload at row `p` is the scratch column's
  entry plus the sum over the block's 2048 columns of the block's entry times the column-sum row's entry (the row is
  spread over the block's rows; the reduction starts from the zero word, the sum's neutral element); the copy-out
  payload is the scratch column's entry times the scale. Block `t` of `x` is rows 1024·(t div 4) …, columns
  2048·(t mod 4) …, and block `t` of the row is columns 2048·(t mod 4) …. So by induction on the point, after point `t`
  the scratch column at row `p` is the sum, over the column tiles 0 … t mod 4 and the 2048 columns of each, of
  x(row, column) · s(column); at the last column tile this is the whole row's sum over the 8192 = 4 · 2048 columns taken
  block by block (a regrouping in a commutative monoid: no finiteness). The output block written back there is that
  column scaled; the two blocks written back cover the column `[2048, 1]`.
-/
import proofs.«132313_j73315091744103_2_alg».proof.Proof.KiMatVec
import proofs.«132313_j73315091744103_2_alg».proof.Proof.LibKeepdims
import proofs.«132313_j73315091744103_2_alg».proof.Proof.LibBlockSum
import proofs.«132313_j73315091744103_2_alg».proof.Proof.Spec
import Idealize.ShloMosaic.Lib.ValueLayout
import Idealize.ShloMosaic.Lib.Pipeline.Value

noncomputable section

namespace Cert.KernelIdeal.MatVecValue

open Cert.KernelIdeal Cert.KernelIdeal.Gen Cert.KernelIdeal.MatVec
open Idealize.ShloMosaic Idealize.ShloMosaic.TcCoe Idealize.SL.Sem
open Idealize.ShloMosaic.ValueIdx Idealize.ShloMosaic.ValueKeepdims
open Idealize.ShloMosaic.Pipeline (Dat)

/-! ## The payloads at an index -/

/-- A row sum with the zero word as the printed accumulator. -/
theorem rowSum_at {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) :=
  multiReduction_add_row src 0x00000000#32 h hφ hacc i

/-- The zero column is 0 everywhere. -/
theorem zeros_apply (p : Fin 1024) : (k1_pay1 (F := Ideal)) (ix2 p (0 : Fin 1)) = 0 := by
  unfold k1_pay1
  rw [shapeCast_self]
  exact Ideal.ofBits_zero_f32

/-- The accumulating payload at row `p`: the scratch column's entry plus the block's row against the row of column sums. -/
theorem step_apply (x0 : Vec Ideal S1024x2048 .f32) (x1 : Vec Ideal S1x2048 .f32) (xs : Vec Ideal S1024x1 .f32) (p : Fin 1024) :
    k1_pay2 x0 x1 xs (ix2 p (0 : Fin 1)) = xs (ix2 p (0 : Fin 1)) + ∑ k : Fin 2048, x0 (ix2 p k) * x1 (ix2 (0 : Fin 1) k) := by
  unfold k1_pay2
  rw [shapeCast_self, shapeCast_self]
  refine (addf_apply _ _ _).trans ?_
  refine congrArg (xs (ix2 p (0 : Fin 1)) + ·) ?_
  refine (shapeCast_a_a1_apply _ _ p 0).trans ?_
  refine (rowSum_at _ _ _ _ p).trans ?_
  refine Finset.sum_congr rfl fun k _ => ?_
  refine (mulf_apply _ _ _).trans ?_
  exact congrArg (x0 (ix2 p k) * ·) (broadcastTo_1b_ab_apply x1 _ p k)

/-- The copy-out payload at row `p`: the scratch column's entry times the scale. -/
theorem scale_apply (v : Vec Ideal S1024x1 .f32) (p : Fin 1024) :
    k1_pay3 v (ix2 p (0 : Fin 1)) = v (ix2 p (0 : Fin 1)) * Cert.Spec.scale := by
  unfold k1_pay3
  exact mulf_apply _ _ _

/-! ## The blocks -/

/-- Entries by natural-number coordinates, 0 outside the array. -/
def entX (X : S2048x8192.Idx → EReal) (a b : ℕ) : EReal :=
  if h : a < 2048 ∧ b < 8192 then X (ix2 ⟨a, h.1⟩ ⟨b, h.2⟩) else 0
def entS (S : S1x8192.Idx → EReal) (b : ℕ) : EReal :=
  if h : b < 8192 then S (ix2 (0 : Fin 1) ⟨b, h⟩) else 0

/-- The printed index maps over the grid. -/
theorem idx_x : ∀ t : Fin cfg1.N, win1_0.index t (0 : Fin 2) = t.val / 4 ∧ win1_0.index t (1 : Fin 2) = t.val % 4 :=
  (by decide +kernel : ∀ t : Fin grid1.N, win1_0.index t (0 : Fin 2) = t.val / 4 ∧ win1_0.index t (1 : Fin 2) = t.val % 4)
theorem idx_s : ∀ t : Fin cfg1.N, win1_1.index t (0 : Fin 2) = 0 ∧ win1_1.index t (1 : Fin 2) = t.val % 4 :=
  (by decide +kernel : ∀ t : Fin grid1.N, win1_1.index t (0 : Fin 2) = 0 ∧ win1_1.index t (1 : Fin 2) = t.val % 4)
theorem idx_o : ∀ t : Fin cfg1.N, win1_2.index t (0 : Fin 2) = t.val / 4 ∧ win1_2.index t (1 : Fin 2) = 0 :=
  (by decide +kernel : ∀ t : Fin grid1.N, win1_2.index t (0 : Fin 2) = t.val / 4 ∧ win1_2.index t (1 : Fin 2) = 0)

section Data

variable (V : (c : Dev nD) → (b : Ref sig .tc) → Buf (Elt Ideal) ((c : Thread nD τ).loc b))

/-- `x` and the column-sum row as the region finds them, as functions into the extended reals. -/
def Xr (c : Dev nD) : S2048x8192.Idx → EReal := V c main_arg0
def Sr (c : Dev nD) : S1x8192.Idx → EReal := V c main_v0

/-- Block `t` of `x` at `(p, k)` is `x` at row 1024·(t div 4) + p, column 2048·(t mod 4) + k. -/
theorem blockX_apply (c : Dev nD) (t : Fin cfg1.N) (p : Fin 1024) (k : Fin 2048) (i : S2048x8192.Idx)
    (hi0 : (i 0).val = 1024 * (t.val / 4) + p.val) (hi1 : (i 1).val = 2048 * (t.val % 4) + k.val) :
    (blockIn V c 0 t : Vec Ideal S1024x2048 .f32) (ix2 p k) = Xr V c i := by
  obtain ⟨e0, e1⟩ := idx_x t
  unfold blockIn Xr
  rw [View.read_apply]
  show V c main_arg0 _ = V c main_arg0 _
  refine congrArg (V c main_arg0) ?_
  funext a
  apply Fin.ext
  match a with
  | ⟨0, _⟩ => show win1_0.index t 0 * 1024 + 1 * p.val = (i 0).val; rw [e0, hi0]; omega
  | ⟨1, _⟩ => show win1_0.index t 1 * 2048 + 1 * k.val = (i 1).val; rw [e1, hi1]; omega

theorem blockX_ent (c : Dev nD) (t : Fin cfg1.N) (p : Fin 1024) (k : Fin 2048) :
    (blockIn V c 0 t : Vec Ideal S1024x2048 .f32) (ix2 p k)
      = entX (Xr V c) (1024 * (t.val / 4) + p.val) (2048 * (t.val % 4) + k.val) := by
  have hN : t.val < 8 := lt_of_lt_of_eq t.isLt N_1
  have hb : 1024 * (t.val / 4) + p.val < 2048 ∧ 2048 * (t.val % 4) + k.val < 8192 := ⟨by omega, by omega⟩
  unfold entX; rw [dif_pos hb]
  exact blockX_apply V c t p k _ rfl rfl

/-- Block `t` of the column-sum row at `(0, k)` is the row at column 2048·(t mod 4) + k. -/
theorem blockS_apply (c : Dev nD) (t : Fin cfg1.N) (k : Fin 2048) (i : S1x8192.Idx)
    (hi0 : (i 0).val = 0) (hi1 : (i 1).val = 2048 * (t.val % 4) + k.val) :
    (blockIn V c 1 t : Vec Ideal S1x2048 .f32) (ix2 (0 : Fin 1) k) = Sr V c i := by
  obtain ⟨e0, e1⟩ := idx_s t
  unfold blockIn Sr
  rw [View.read_apply]
  show V c main_v0 _ = V c main_v0 _
  refine congrArg (V c main_v0) ?_
  funext a
  apply Fin.ext
  match a with
  | ⟨0, _⟩ => show win1_1.index t 0 * 1 + 1 * 0 = (i 0).val; rw [e0, hi0]
  | ⟨1, _⟩ => show win1_1.index t 1 * 2048 + 1 * k.val = (i 1).val; rw [e1, hi1]; omega

theorem blockS_ent (c : Dev nD) (t : Fin cfg1.N) (k : Fin 2048) :
    (blockIn V c 1 t : Vec Ideal S1x2048 .f32) (ix2 (0 : Fin 1) k) = entS (Sr V c) (2048 * (t.val % 4) + k.val) := by
  have hN : t.val < 8 := lt_of_lt_of_eq t.isLt N_1
  have hb : 2048 * (t.val % 4) + k.val < 8192 := by omega
  unfold entS; rw [dif_pos hb]
  exact blockS_apply V c t k _ rfl rfl

/-! ## The running sum -/

theorem acc_restart (c : Dev nD) (n : ℕ) (hn : n < cfg1.N) (h : n % 4 = 0) :
    acc V c n hn = k1_pay2 (blockIn V c 0 ⟨n, hn⟩) (blockIn V c 1 ⟨n, hn⟩) (k1_pay1 (F := Ideal)) := acc_first V c ⟨n, hn⟩ h
theorem acc_succ (c : Dev nD) (n : ℕ) (hn : n + 1 < cfg1.N) (h : ¬ (n + 1) % 4 = 0) :
    acc V c (n + 1) hn = k1_pay2 (blockIn V c 0 ⟨n + 1, hn⟩) (blockIn V c 1 ⟨n + 1, hn⟩) (acc V c n (Nat.lt_of_succ_lt hn)) := if_neg h

/-- One column tile's contribution to row `p` of row tile `a`. -/
def tileSum (c : Dev nD) (a : ℕ) (p : Fin 1024) (k' : ℕ) : EReal :=
  ∑ k : Fin 2048, entX (Xr V c) (1024 * a + p.val) (2048 * k' + k.val) * entS (Sr V c) (2048 * k' + k.val)

theorem tile_eq (c : Dev nD) (n : ℕ) (hn : n < cfg1.N) (p : Fin 1024)
    (x0 : Vec Ideal S1024x2048 .f32) (x1 : Vec Ideal S1x2048 .f32)
    (h0 : x0 = blockIn V c 0 ⟨n, hn⟩) (h1 : x1 = blockIn V c 1 ⟨n, hn⟩) :
    ∑ k : Fin 2048, x0 (ix2 p k) * x1 (ix2 (0 : Fin 1) k) = tileSum V c (n / 4) p (n % 4) := by
  subst h0 h1
  unfold tileSum
  exact Finset.sum_congr rfl fun k _ => by rw [blockX_ent V c ⟨n, hn⟩ p k, blockS_ent V c ⟨n, hn⟩ k]

/-- After point `n` the scratch column at row `p` is the sum over the column tiles 0 … n mod 4 of the current row tile. -/
theorem acc_apply (c : Dev nD) : ∀ (n : ℕ) (hn : n < cfg1.N) (p : Fin 1024),
    acc V c n hn (ix2 p (0 : Fin 1)) = ∑ k' ∈ Finset.range (n % 4 + 1), tileSum V c (n / 4) p k' := by
  intro n
  induction n with
  | zero =>
    intro hn p
    rw [acc_restart V c 0 hn rfl, step_apply, zeros_apply, zero_add, tile_eq V c 0 hn p _ _ rfl rfl]
    show _ = ∑ k' ∈ Finset.range 1, _
    rw [Finset.sum_range_one]
  | succ n ih =>
    intro hn p
    by_cases h0 : (n + 1) % 4 = 0
    · rw [acc_restart V c (n + 1) hn h0, step_apply, zeros_apply, zero_add, tile_eq V c (n + 1) hn p _ _ rfl rfl, h0]
      show _ = ∑ k' ∈ Finset.range 1, _
      rw [Finset.sum_range_one]
    · rw [acc_succ V c n hn h0, step_apply, ih (Nat.lt_of_succ_lt hn) p, tile_eq V c (n + 1) hn p _ _ rfl rfl]
      have e1 : (n + 1) % 4 = n % 4 + 1 := by omega
      have e2 : (n + 1) / 4 = n / 4 := by omega
      rw [e1, Finset.sum_range_succ _ (n % 4 + 1), e2]

/-- A whole row against the row of column sums, taken as 4 blocks of 2048 consecutive columns. -/
theorem row_blocks (X : S2048x8192.Idx → EReal) (S : S1x8192.Idx → EReal) (q : Fin 2048) :
    ∑ i : Fin 8192, X (ix2 q i) * S (ix2 (0 : Fin 1) i)
      = ∑ k' ∈ Finset.range 4, ∑ k : Fin 2048, entX X q.val (2048 * k' + k.val) * entS S (2048 * k' + k.val) := by
  rw [Cert.Lib.BlockSum.sum_blocks 4 2048 (fun i : Fin (4 * 2048) => X (ix2 q (⟨i.val, i.isLt⟩ : Fin 8192)) * S (ix2 (0 : Fin 1) (⟨i.val, i.isLt⟩ : Fin 8192))), Finset.sum_range]
  refine Finset.sum_congr rfl fun s _ => Finset.sum_congr rfl fun k _ => ?_
  have hs : s.val < 4 := s.isLt
  have hk : k.val < 2048 := k.isLt
  have hb : 2048 * s.val + k.val < 8192 := by omega
  unfold entX entS
  rw [dif_pos ⟨q.isLt, hb⟩, dif_pos hb]
  have e : (⟨(Cert.Lib.BlockSum.at_ s k).val, (Cert.Lib.BlockSum.at_ s k).isLt⟩ : Fin 8192) = ⟨2048 * s.val + k.val, hb⟩ :=
    Fin.ext (by show s.val * 2048 + k.val = 2048 * s.val + k.val; omega)
  rw [e]

/-- The result column: entry `(q, 0)` is row `q` of `x` against the row of column sums, scaled. -/
def G (c : Dev nD) : S2048x1.Idx → EReal := fun b =>
  (∑ i : Fin 8192, Xr V c (ix2 (⟨(b 0).val, idx2_lt0 b⟩ : Fin 2048) i) * Sr V c (ix2 (0 : Fin 1) i)) * Cert.Spec.scale

/-- At a last column tile the copy-out payload holds the scaled whole-row sums of its row tile. -/
theorem out_last (c : Dev nD) (t : Fin cfg1.N) (hl : t.val % 4 = 3) (y : S1024x1.Idx) :
    k1_pay3 (acc V c t.val t.isLt) y
      = (∑ i : Fin 8192, Xr V c (ix2 (⟨1024 * (t.val / 4) + (y 0).val, by
            have := idx2_lt0 y; have := lt_of_lt_of_eq t.isLt N_1; omega⟩ : Fin 2048) i)
          * Sr V c (ix2 (0 : Fin 1) i)) * Cert.Spec.scale := by
  obtain ⟨p, u, rfl⟩ : ∃ (p : Fin 1024) (u : Fin 1), y = ix2 p u := ⟨y 0, y 1, eq_ix2 y⟩
  obtain rfl : u = 0 := Subsingleton.elim _ _
  rw [scale_apply, acc_apply V c t.val t.isLt p, row_blocks, hl]
  rfl

/-! ## The write-backs and the final array -/

theorem flushed_eq (c : Dev nD) (t : Fin cfg1.N) (hf : (cfg1.win 2).flush t = true) :
    (dat V c).flushed 2 t = ((cfg1.win 2).blk t).view.read (Elt Ideal) (G V c) := by
  have hl : t.val % 4 = 3 := (flush1_2 t).mp hf
  obtain ⟨e0, e1⟩ := idx_o t
  show (cfg1.win 2).cut (grid1.coords t) ((dat V c).after 2 t) = _
  rw [after_out]
  funext y
  show k1_pay3 (acc V c t.val t.isLt) y = G V c (((cfg1.win 2).blk t).view.emb y)
  refine (out_last V c t hl y).trans ?_
  unfold G
  have hrow : (⟨1024 * (t.val / 4) + (y 0).val, by
      have := idx2_lt0 y; have := lt_of_lt_of_eq t.isLt N_1; omega⟩ : Fin 2048)
      = ⟨((((cfg1.win 2).blk t).view.emb y) 0).val, idx2_lt0 _⟩ :=
    Fin.ext (by show 1024 * (t.val / 4) + (y 0).val = win1_2.index t 0 * 1024 + 1 * (y 0).val; rw [e0]; omega)
  rw [hrow]

theorem mem_blk (t : Fin cfg1.N) (i : S2048x1.Idx) :
    i ∈ ((cfg1.win 2).blk t).view.set ↔ ∀ a : Fin 2, win1_2.index t a * S1024x1.size a ≤ (i a).val ∧ (i a).val < win1_2.index t a * S1024x1.size a + S1024x1.size a := by
  show i ∈ ((View.whole main_v1).slice (win1_2.rect t)).set ↔ _
  rw [View.set_slice_whole, Rect.mem_set_unit]
  exact Iff.rfl

/-- THE SECOND PASS'S RESULT: the column ends holding every row's scaled sum. -/
theorem final (c : Dev nD) : (dat V c).arrAt 2 cfg1.N = G V c :=
  (dat V c).arrAt_eq_of_cover 2 (G V c) (flushed_eq V c) fun i => by
    have h0 : (i 0).val < 2048 := idx2_lt0 i
    have h1 : (i 1).val < 1 := idx2_lt1 i
    have ht : 4 * ((i 0).val / 1024) + 3 < cfg1.N := by rw [show cfg1.N = 8 from N_1]; omega
    refine ⟨⟨4 * ((i 0).val / 1024) + 3, ht⟩, (flush1_2 _).mpr (by show (4 * ((i 0).val / 1024) + 3) % 4 = 3; omega), ?_⟩
    rw [mem_blk]
    obtain ⟨e0, e1⟩ := idx_o ⟨4 * ((i 0).val / 1024) + 3, ht⟩
    intro a
    match a with
    | ⟨0, _⟩ =>
      show win1_2.index ⟨4 * ((i 0).val / 1024) + 3, ht⟩ 0 * 1024 ≤ (i 0).val ∧ (i 0).val < win1_2.index ⟨4 * ((i 0).val / 1024) + 3, ht⟩ 0 * 1024 + 1024
      rw [e0]
      show (4 * ((i 0).val / 1024) + 3) / 4 * 1024 ≤ (i 0).val ∧ (i 0).val < (4 * ((i 0).val / 1024) + 3) / 4 * 1024 + 1024
      omega
    | ⟨1, _⟩ =>
      show win1_2.index ⟨4 * ((i 0).val / 1024) + 3, ht⟩ 1 * 1 ≤ (i 1).val ∧ (i 1).val < win1_2.index ⟨4 * ((i 0).val / 1024) + 3, ht⟩ 1 * 1 + 1
      rw [e1]; omega

end Data

end Cert.KernelIdeal.MatVecValue

end
-- ==== Proof.KiResult.lean ====
/-
  The two passes together: the result column is the specification.

  The second pass finds `x` as launched and the column-sum row as the first pass left it, every column's sum of `W`.
  Its result, row `q`: (∑ᵢ x(q,i) · (column sum i)) · 3/4 — which is the specification's row, term by term.
-/
import proofs.«132313_j73315091744103_2_alg».proof.Proof.KiRun
import proofs.«132313_j73315091744103_2_alg».proof.Proof.KiColSumValue
import proofs.«132313_j73315091744103_2_alg».proof.Proof.KiMatVecValue
import proofs.«132313_j73315091744103_2_alg».proof.Proof.Spec

noncomputable section

namespace Cert.KernelIdeal.Result

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (ρ : Dev nD → PrngReg)

/-- The second pass's output array after all its write-backs is the specification of the launch contents. -/
theorem result (c : Dev nD) :
    (MatVec.dat (Run.V1 m ρ) c).arrAt 2 cfg1.N
      = Cert.Spec.out (m ((c.tc : Thread nD τ).loc main_arg0)) (m ((c.tc : Thread nD τ).loc main_arg1)) := by
  rw [MatVecValue.final]
  funext b
  obtain ⟨p, q, rfl⟩ : ∃ (p : Fin 2048) (q : Fin 1), b = ix2 p q := ⟨b 0, b 1, eq_ix2 b⟩
  rw [Cert.Spec.out_apply]
  unfold MatVecValue.G Cert.Spec.rowOut MatVecValue.Xr MatVecValue.Sr
  rw [Run.V1_main_arg0 m ρ c, Run.V1_main_v0 m ρ c, ColSumValue.final]
  refine congrArg (· * Cert.Spec.scale) (Finset.sum_congr rfl fun i _ => ?_)
  rfl

end Cert.KernelIdeal.Result

end
-- ==== Proof.LibERealSum.lean ====
/-
  Finite sums of real numbers inside the extended reals.

  `coe_sum`: the coercion `ℝ → EReal` commutes with a finite sum (Mathlib states it for `+` and for `*`, not for `∑`).
  `lowrank_swap`: for real `s`, `u : ι → ℝ`, `B : ι → κ → ℝ`, `a : κ → ℝ` over finite index types,

      ∑ᵣ (s · ∑ₙ uₙ · Bₙᵣ) · aᵣ  =  ∑ₙ uₙ · (s · ∑ᵣ aᵣ · Bₙᵣ)        (as extended reals)

  — a vector pushed through a rank-κ factorization from either end. It is an identity of REAL numbers (distributivity and an
  exchange of two finite sums); on the extended reals it fails at the infinities, which is why it is stated over
  coercions.
-/
import Mathlib.Data.EReal.Operations
import Mathlib.Algebra.BigOperators.Ring.Finset
import Mathlib.Algebra.BigOperators.Group.Finset.Sigma
import Mathlib.Tactic.Ring

namespace Cert.Lib.ERealSum

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- `∑ᵣ (s · ∑ₙ uₙ·Bₙᵣ) · aᵣ = ∑ₙ uₙ · (s · ∑ᵣ aᵣ·Bₙᵣ)` on real numbers, read in the extended reals: both are
    `s · ∑ₙ ∑ᵣ uₙ·Bₙᵣ·aᵣ`, by distributivity and the exchange of the two finite sums. -/
theorem lowrank_swap {ι κ : Type*} [Fintype ι] [Fintype κ] (s : ℝ) (u : ι → ℝ) (Bm : ι → κ → ℝ) (a : κ → ℝ) :
    ∑ r, ((s : EReal) * ∑ n, (u n : EReal) * (Bm n r : EReal)) * (a r : EReal)
      = ∑ n, (u n : EReal) * ((s : EReal) * ∑ r, (a r : EReal) * (Bm n r : EReal)) := by
  simp only [← EReal.coe_mul, ← coe_sum]
  refine congrArg _ ?_
  simp only [Finset.mul_sum, Finset.sum_mul]
  rw [Finset.sum_comm]
  exact Finset.sum_congr rfl fun n _ => Finset.sum_congr rfl fun r _ => by ring

end Cert.Lib.ERealSum
-- ==== Proof.RefLaw.lean ====
/-
  The law between the two arrangements of the result, on real numbers read in the extended reals.

  For real `a : ι → ℝ` (one row of the left factor) and `B : κ → ι → ℝ` (the right factor, row `h`, column `i`) over
  finite index types,

      ( 0 + ∑ₕ (∑ᵢ aᵢ · Bₕᵢ) · 1/2 ) · 3/2  =  ( ∑ᵢ aᵢ · ∑ₕ Bₕᵢ ) · 3/4 .

  Both sides are `3/4 · ∑ₕ ∑ᵢ aᵢ · Bₕᵢ`: the constant factors combine (1/2 · 3/2 = 3/4), the two finite sums are
  exchanged, and `aᵢ` is distributed over the inner sum. Distributivity is an identity of REAL numbers; on the extended
  reals it fails at the infinities (with `aᵢ = ⊤` and a column `1, -1`: `⊤ · (1 + -1) = 0` but `⊤ · 1 + ⊤ · -1 = ⊥`),
  which is why the statement is over coercions of reals.
-/
import proofs.«132313_j73315091744103_2_alg».proof.Proof.LibERealSum

namespace Cert.RefBridge

open Cert.Lib.ERealSum

/-- The identity on real numbers: halve each row's dot product, add them up, scale by 3/2 — or take the row against the
    column sums and scale by 3/4. -/
theorem law_real {ι κ : Type*} [Fintype ι] [Fintype κ] (a : ι → ℝ) (B : κ → ι → ℝ) :
    (∑ h, (∑ i, a i * B h i) * (1 / 2)) * (3 / 2) = (∑ i, a i * ∑ h, B h i) * (3 / 4) := by
  simp only [Finset.mul_sum, Finset.sum_mul]
  rw [Finset.sum_comm]
  exact Finset.sum_congr rfl fun i _ => Finset.sum_congr rfl fun h _ => by ring

/-- The same identity read in the extended reals, with the sum started from `0`. -/
theorem law {ι κ : Type*} [Fintype ι] [Fintype κ] (a : ι → ℝ) (B : κ → ι → ℝ) :
    ((0 : EReal) + ∑ h, (∑ i, (a i : EReal) * (B h i : EReal)) * ((1 / 2 : ℝ) : EReal)) * ((3 / 2 : ℝ) : EReal)
      = (∑ i, (a i : EReal) * ∑ h, (B h i : EReal)) * ((3 / 4 : ℝ) : EReal) := by
  rw [zero_add]
  simp only [← EReal.coe_mul, ← coe_sum]
  exact congrArg _ (law_real a B)

end Cert.RefBridge
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.RefFinite.lean ====
/-
  Under the precondition, every entry of both arguments is a real number.

  The precondition is `all (|x| < +inf) ∧ all (|W| < +inf)`: each argument's elementwise test against the f32 pattern of
  `+inf`, reduced over both axes by `and` from 1, and the two bits conjoined. The conjunction being 1 makes each
  reduction 1; a reduction by `and` into the one scalar index that is 1 met a 1 at every entry; and `|a| < +inf` on the
  extended reals excludes `a = ⊤` and `a = ⊥`.
-/
import proofs.«132313_j73315091744103_2_alg».proof.Proof.Gen.Pre_finite_inputs
import proofs.«132313_j73315091744103_2_alg».proof.Proof.LibFiniteEntry
import Idealize.ShloMosaic.Lib.ValueIdx

noncomputable section

namespace Cert.RefBridge

open Idealize.ShloMosaic Idealize.ShloMosaic.ValueIdx Cert.Lib.FiniteEntry

/-- Both arguments' entries are real numbers when the precondition's bit is 1. -/
theorem entries_real (x : FVec Ideal Cert.Pre_finite_inputs.S2048x8192 .f32)
    (W : FVec Ideal Cert.Pre_finite_inputs.S8192x8192 .f32)
    (hpre : Cert.Pre_finite_inputs.fn (F := Ideal) x W = fun _ => 1#1) :
    (∀ i, ∃ r : ℝ, x i = (r : EReal)) ∧ (∀ i, ∃ r : ℝ, W i = (r : EReal)) := by
  have h := congrFun hpre ix0
  dsimp only [Cert.Pre_finite_inputs.fn] at h
  obtain ⟨h1, h2⟩ := IntOp.andi_eq_one.1 h
  exact ⟨fun i => entry_real _ x i (Host.reduce_andi_all _ _ _ _ _ h1 i),
    fun i => entry_real _ W i (Host.reduce_andi_all _ _ _ _ _ h2 i)⟩

end Cert.RefBridge

end
-- ==== Proof.RefBridge.lean ====
/-
  The reference program computes the specification, under the precondition.

  Read stage by stage at the index `(p, q)` of the result `[2048, 1]`, the reference is

      ( 0 + ∑ₕ ( ∑ᵢ x(p,i) · W(h,i) ) / 2 ) · 3/2 ,

  the words `0x00000000`, `0x40000000`, `0x3FC00000` being the extended reals 0, 2 and 3/2: the `dot_general` contracts
  axis 1 of both arguments, so its element `(p, h)` is row `p` of `x` against row `h` of `W`; the division is
  elementwise; the `reduce` adds over `h` from 0; the two broadcasts carry `(p, q)` to `p` and the constant to every
  index. The specification is `( ∑ᵢ x(p,i) · ∑ₕ W(h,i) ) · 3/4`. With every entry a real number (the precondition),
  division by 2 is the product with 1/2 and the two agree by the law on real numbers.
-/
import proofs.«132313_j73315091744103_2_alg».proof.Proof.Gen.ReferenceIdeal.Read
import proofs.«132313_j73315091744103_2_alg».proof.Proof.Spec
import proofs.«132313_j73315091744103_2_alg».proof.Proof.RefLaw
import proofs.«132313_j73315091744103_2_alg».proof.Proof.RefFinite

noncomputable section

namespace Cert.RefBridge

open Idealize.ShloMosaic Idealize.ShloMosaic.ValueIdx Cert.ReferenceIdeal Cert.ReferenceIdeal.Read

/-! ## The three float words -/

/-- The f32 word `0x40000000` is the real number 2. -/
theorem ofBits_two : Ideal.ofBits .f32 0x40000000#32 = ((2 : ℝ) : EReal) := by
  simp [Ideal.ofBits, Ideal.ieee, -EReal.coe_mul]; norm_num

/-- The f32 word `0x3FC00000` is the real number 3/2. -/
theorem ofBits_three_halves : Ideal.ofBits .f32 0x3FC00000#32 = ((3 / 2 : ℝ) : EReal) := by
  simp [Ideal.ofBits, Ideal.ieee, -EReal.coe_mul]; norm_num

/-- The f32 word `0x3F400000` is the real number 3/4. -/
theorem ofBits_three_quarters : Ideal.ofBits .f32 0x3F400000#32 = ((3 / 4 : ℝ) : EReal) := by
  simp [Ideal.ofBits, Ideal.ieee, -EReal.coe_mul]; norm_num

/-! ## The reference read at an index -/

/-- Through the two broadcasts and the reduction, the `dot_general`'s left operand is read at row `p`, column `i`. -/
theorem lidx_eq (p : Fin 2048) (q : Fin 1) (h i : Fin 8192) :
    lidx_main_v0 (idx_main_v3 (idx_main_v4 (ix2 p q)) h) i = ix2 p i :=
  funext fun a => Fin.ext (by match a with | ⟨0, _⟩ => rfl | ⟨1, _⟩ => rfl)

/-- … and its right operand at row `h`, column `i`. -/
theorem ridx_eq (p : Fin 2048) (q : Fin 1) (h i : Fin 8192) :
    ridx_main_v0 (idx_main_v3 (idx_main_v4 (ix2 p q)) h) i = ix2 h i :=
  funext fun a => Fin.ext (by match a with | ⟨0, _⟩ => rfl | ⟨1, _⟩ => rfl)

/-- The reference's result at `(p, q)`, as sums over the extended reals. -/
theorem reference_apply (x : (⟨S2048x8192, .f32⟩ : BufTy).Contents (Elt Ideal))
    (W : (⟨S8192x8192, .f32⟩ : BufTy).Contents (Elt Ideal)) (p : Fin 2048) (q : Fin 1) :
    val_main_v6 (F := Ideal) x W (ix2 p q)
      = (Ideal.ofBits .f32 0x00000000#32
          + ∑ h : Fin 8192, Ideal.div (∑ i : Fin 8192, x (ix2 p i) * W (ix2 h i)) (Ideal.ofBits .f32 0x40000000#32))
        * Ideal.ofBits .f32 0x3FC00000#32 := by
  rw [val_main_v6_apply, val_main_v4_apply, val_main_v3_apply, val_main_v5_apply, val_main_cst_1_apply,
    val_main_cst_0_apply]
  simp only [val_main_v2_apply, val_main_v0_apply, val_main_v1_apply, val_main_cst_apply, lidx_eq, ridx_eq,
    Ideal.mulf_def, Ideal.hostDivf_def, Ideal.ofBits_def]

/-! ## The assembly -/

/-- Under the precondition the reference's result is the specification. -/
theorem reference_eq_spec
    (x : (⟨Cert.ReferenceIdeal.S2048x8192, .f32⟩ : BufTy).Contents (Elt Ideal))
    (W : (⟨Cert.ReferenceIdeal.S8192x8192, .f32⟩ : BufTy).Contents (Elt Ideal))
    (hpre : Cert.Pre_finite_inputs.fn (F := Ideal) x W = fun _ => 1#1) :
    Cert.ReferenceIdeal.Read.val_main_v6 (F := Ideal) x W = Cert.Spec.out x W := by
  obtain ⟨hx, hW⟩ := entries_real x W hpre
  choose xr hxr using hx
  choose Wr hWr using hW
  funext b
  obtain ⟨p, q, rfl⟩ : ∃ (p : Fin 2048) (q : Fin 1), b = ix2 p q := ⟨b 0, b 1, eq_ix2 b⟩
  rw [reference_apply, Cert.Spec.out_apply]
  unfold Cert.Spec.rowOut Cert.Spec.colsum Cert.Spec.scale
  simp only [hxr, hWr]
  rw [Ideal.ofBits_zero_f32, ofBits_two, ofBits_three_halves, ofBits_three_quarters]
  simp only [Ideal.div_coe (y := 2) two_ne_zero]
  exact law (fun i => xr (ix2 p i)) (fun h i => Wr (ix2 h i))

end Cert.RefBridge

end
-- ==== Proof.lean ====
/-
  The certificate's five claims for the two-pass column-sum / row-product kernel.

  The kernel first sums every column of the weight matrix (a grid of row tiles accumulated in a scratch row), then takes
  each row of `x` against that row of sums (a grid of column tiles accumulated in a scratch column) and scales by 3/4.
  The reference multiplies `x` by the transposed weight matrix, halves, sums each row and scales by 3/2. On the extended
  reals the kernel's result is the specification `Cert.Spec.out` with no finiteness used (regrouping sums only); the
  reference's is the same function when every input is finite, by exchanging the two finite sums and distributing
  x(p,i) over a column's sum. The three frames: each program terminates without a fault and leaves its arguments
  unchanged — for the kernel at both instances from the run of its two regions, for the reference from its run.
  The idealization rewrote nothing, so `preserves` is trivial.
-/
import proofs.«132313_j73315091744103_2_alg».proof.Defs
import proofs.«132313_j73315091744103_2_alg».proof.Proof.Gen.Kernel
import proofs.«132313_j73315091744103_2_alg».proof.Proof.Gen.KernelIdeal
import proofs.«132313_j73315091744103_2_alg».proof.Proof.Gen.ReferenceIdeal
import proofs.«132313_j73315091744103_2_alg».proof.Proof.Gen.Pre_finite_inputs
import proofs.«132313_j73315091744103_2_alg».proof.Proof.Gen.ReferenceIdeal.Run
import proofs.«132313_j73315091744103_2_alg».proof.Proof.Gen.ReferenceIdeal.Read
import proofs.«132313_j73315091744103_2_alg».proof.Proof.KwRun
import proofs.«132313_j73315091744103_2_alg».proof.Proof.KiRun
import proofs.«132313_j73315091744103_2_alg».proof.Proof.KiResult
import proofs.«132313_j73315091744103_2_alg».proof.Proof.RefBridge
import Idealize.ShloMosaic.Adequacy
import Idealize.ShloMosaic.Init

noncomputable section

namespace Cert.Proof

open Idealize.ShloMosaic Idealize.SL.Sem

/-- The word-level kernel runs to the end and leaves `x` and `W` as launched. -/
theorem frame_kernel : Cert.frame_Kernel := fun m ρ _ => Cert.Kernel.Run.frame m ρ

/-- The same of the idealized kernel. -/
theorem frame_kernelIdeal : Cert.frame_KernelIdeal := fun m ρ _ => Cert.KernelIdeal.Run.frame m ρ

/-- The reference runs to the end and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the specification of the arguments: the kernel always, the reference because the
    inputs are finite. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Result.result m ρ c), (h c).2⟩)
      (Cert.KernelIdeal.Run.run_value m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v6_eq, (hagree c).1, (hagree c).2]
    exact Cert.RefBridge.reference_eq_spec _ _ (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
